-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x4096 .f32 .bf16
  ∧ IdealRules.truncf_extf.Statement Cert.KernelIdeal.S128x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) (main_arg1 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S16x512x4096 : Shape := ⟨3, ![16, 512, 4096]⟩
abbrev S1x128x4096 : Shape := ⟨3, ![1, 128, 4096]⟩
abbrev S1x512x4096 : Shape := ⟨3, ![1, 512, 4096]⟩
abbrev S1x128x64x64 : Shape := ⟨4, ![1, 128, 64, 64]⟩
abbrev S512x4096 : Shape := ⟨2, ![512, 4096]⟩
abbrev S128x4096 : Shape := ⟨2, ![128, 4096]⟩
abbrev S128x512 : Shape := ⟨2, ![128, 512]⟩
abbrev S128 : Shape := ⟨1, ![128]⟩
abbrev S128x1 : Shape := ⟨2, ![128, 1]⟩
abbrev S128x64x64 : Shape := ⟨3, ![128, 64, 64]⟩
abbrev S128x64 : Shape := ⟨2, ![128, 64]⟩
abbrev S128x64x1 : Shape := ⟨3, ![128, 64, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x512x64x64, .f32⟩
  | .local _ .vmem, ⟨0, _⟩ => ⟨S1x128x4096, .f32⟩
  | .local _ .vmem, ⟨1, _⟩ => ⟨S1x128x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x128x64x64, .f32⟩
  | .local _ .vmem, ⟨5, _⟩ => ⟨S1x128x64x64, .f32⟩
  | .local _ .vmem, ⟨6, _⟩ => ⟨S512x4096, .bf16⟩
  | .local _ .vmem, ⟨7, _⟩ => ⟨S512x4096, .bf16⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x512x64x64_S16x512x4096 : S16x512x64x64.ShapeCasts S16x512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  reduces_S128x512_S128 : S128x512.Reduces [1] S128
  shapeCasts_S128_S128x1 : S128.ShapeCasts S128x1
  broadcasts_S128x1_S128x512 : S128x1.Broadcasts S128x512
  shapeCasts_S128x4096_S128x64x64 : S128x4096.ShapeCasts S128x64x64
  reduces_S128x64x64_S128x64 : S128x64x64.Reduces [2] S128x64
  shapeCasts_S128x64_S128x64x1 : S128x64.ShapeCasts S128x64x1
  broadcasts_S128x64x1_S128x64x64 : S128x64x1.Broadcasts S128x64x64
  inb_S1x128x64x64_S1x128x64x64_0_0_0_0 : ∀ a, (![0, 0, 0, 0] : Fin 4 → Nat) a + S1x128x64x64.size a ≤ S1x128x64x64.size a
  h_S1x128x64x64 : 0 < S1x128x64x64.numel
  shapeCasts_S1x128x64x64_S128x64x64 : S1x128x64x64.ShapeCasts S128x64x64
  shapeCasts_S128x64x64_S1x128x64x64 : S128x64x64.ShapeCasts S1x128x64x64
  dot_S128x4096_S512x4096_S128x512_1_1_0_0_n_n_wf : DotDims.WF S128x4096 S512x4096 S128x512 [1] [1] [0] [0] [] []
  dot_S128x512_S512x4096_S128x4096_1_0_0_1_n_n_wf : DotDims.WF S128x512 S512x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S16x512x4096.size a
  hwx0_0 : ∀ i : grid0.Coords, EltTy.bits .f32 = 32 ∨ (Rect.block (s := S16x512x4096) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S16x512x4096.size a
  hwx0_1 : ∀ i : grid0.Coords, EltTy.bits .f32 = 32 ∨ (Rect.block (s := S16x512x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64x64.size a ≤ S16x512x64x64.size a
  hwx0_2 : ∀ i : grid0.Coords, EltTy.bits .f32 = 32 ∨ (Rect.block (s := S16x512x64x64) S1x128x64x64.size (cc0_transform_2 i) (hinb0_2 i)).WholeWords (EltTy.packing .f32)

variable [Facts₀]

def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_v0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x512x4096 : Shape := ⟨3, ![16, 512, 4096]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩
abbrev S16x512x64 : Shape := ⟨3, ![16, 512, 64]⟩
abbrev S16x512x64x1 : Shape := ⟨4, ![16, 512, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x512x512, .f32⟩
  | .hbm, ⟨5, _⟩ => ⟨S_, .f32⟩
  | .hbm, ⟨6, _⟩ => ⟨S16x512, .f32⟩
  | .hbm, ⟨7, _⟩ => ⟨S16x512x1, .f32⟩
  | .hbm, ⟨8, _⟩ => ⟨S16x512x512, .f32⟩
  | .hbm, ⟨9, _⟩ => ⟨S16x512x512, .f32⟩
  | .hbm, ⟨10, _⟩ => ⟨S_, .f32⟩
  | .hbm, ⟨11, _⟩ => ⟨S16x512, .f32⟩
  | .hbm, ⟨12, _⟩ => ⟨S_, .f32⟩
  | .hbm, ⟨13, _⟩ => ⟨S16x512, .f32⟩
  | .hbm, ⟨14, _⟩ => ⟨S16x512, .f32⟩
  | .hbm, ⟨15, _⟩ => ⟨S16x512x1, .f32⟩
  | .hbm, ⟨16, _⟩ => ⟨S16x512x512, .f32⟩
  | .hbm, ⟨17, _⟩ => ⟨S16x512x512, .f32⟩
  | .hbm, ⟨18, _⟩ => ⟨S16x512x512, .f32⟩
  | .hbm, ⟨19, _⟩ => ⟨S_, .f32⟩
  | .hbm, ⟨20, _⟩ => ⟨S16x512, .f32⟩
  | .hbm, ⟨21, _⟩ => ⟨S16x512x1, .f32⟩
  | .hbm, ⟨22, _⟩ => ⟨S16x512x512, .f32⟩
  | .hbm, ⟨23, _⟩ => ⟨S16x512x512, .f32⟩
  | .hbm, ⟨24, _⟩ => ⟨S16x512x4096, .f32⟩
  | .hbm, ⟨25, _⟩ => ⟨S16x512x64x64, .f32⟩
  | .hbm, ⟨26, _⟩ => ⟨S_, .f32⟩
  | .hbm, ⟨27, _⟩ => ⟨S16x512x64, .f32⟩
  | .hbm, ⟨28, _⟩ => ⟨S_, .f32⟩
  | .hbm, ⟨29, _⟩ => ⟨S16x512x64, .f32⟩
  | .hbm, ⟨30, _⟩ => ⟨S16x512x64, .f32⟩
  | .hbm, ⟨31, _⟩ => ⟨S16x512x64x1, .f32⟩
  | .hbm, ⟨32, _⟩ => ⟨S16x512x64x64, .f32⟩
  | .hbm, ⟨33, _⟩ => ⟨S16x512x64x64, .f32⟩
  | .hbm, ⟨34, _⟩ => ⟨S16x512x64x64, .f32⟩
  | .hbm, ⟨35, _⟩ => ⟨S_, .f32⟩
  | .hbm, ⟨36, _⟩ => ⟨S16x512x64, .f32⟩
  | .hbm, ⟨37, _⟩ => ⟨S16x512x64x1, .f32⟩
  | .hbm, ⟨38, _⟩ => ⟨S16x512x64x64, .f32⟩
  | .hbm, ⟨39, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S_S16x512 : S_.BroadcastsInDim S16x512 (![] : Fin 0 → Fin S16x512.rank)
  shapeCasts_S16x512x4096_S16x512x64x64 : S16x512x4096.ShapeCasts S16x512x64x64
  reducesTo_S16x512x64x64_S16x512x64_d3 : S16x512x64x64.ReducesTo [3] S16x512x64
  bcast_S_S16x512x64 : S_.BroadcastsInDim S16x512x64 (![] : Fin 0 → Fin S16x512x64.rank)
  bcast_S16x512x64_S16x512x64x1_0_1_2 : S16x512x64.BroadcastsInDim S16x512x64x1 (![0, 1, 2] : Fin 3 → Fin S16x512x64x1.rank)
  bcast_S16x512x64x1_S16x512x64x64_0_1_2_3 : S16x512x64x1.BroadcastsInDim S16x512x64x64 (![0, 1, 2, 3] : Fin 4 → Fin S16x512x64x64.rank)
  dot_S16x512x4096_S16x512x4096_S16x512x512_2_2_1_1_0_0_wf : DotDims.WF S16x512x4096 S16x512x4096 S16x512x512 [2] [2] [1] [1] [0] [0]
  dot_S16x512x512_S16x512x4096_S16x512x4096_2_1_1_2_0_0_wf : DotDims.WF S16x512x512 S16x512x4096 S16x512x4096 [2] [1] [1] [2] [0] [0]

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf
def dot_S16x512x512_S16x512x4096_S16x512x4096_2_1_1_2_0_0 : DotDims S16x512x512 S16x512x4096 S16x512x4096 where
  lhsContracting := [2]
  rhsContracting := [1]
  lhsNonContracting := [1]
  rhsNonContracting := [2]
  lhsBatch := [0]
  rhsBatch := [0]
  wf := dot_S16x512x512_S16x512x4096_S16x512x4096_2_1_1_2_0_0_wf

class Facts : Prop extends Facts₀ where

variable [Facts]
-- ==== Proof.LibAttention.lean ====
/-
  Channel attention with a flipped softmax, on the extended reals, for rows of any length.

  For a query row q of N numbers and D key rows kv of N numbers each:
    energy d   = Σ_n q n · kv d n
    flipped d  = (max_d' energy d') − energy d
    attn       = softmax of flipped (over the D rows)
    mixed n    = Σ_d attn d · kv d n
  Every maximum starts from −∞ (the f32 word 0xFF800000) and a softmax shifts by max(−∞, maximum), exponentiates and
  divides by the sum of the exponentials — the operations jax.nn.softmax lowers to. A second spelling splits the key
  rows into a stored part and a residual and adds three inner products, q·hi + q·lo + (q − q)·hi; with lo = kv − kv and
  every entry finite the two corrections vanish term by term and the spellings agree (`energy_three`, `mixed3_eq`).
  Nothing here mentions a program or a shape.
-/
import Idealize.ShloMosaic.PureOps.Ideal.Laws

noncomputable section

namespace Cert.Spec

open Idealize.ShloMosaic

/-- The f32 word of −∞: the value every maximum starts from. -/
abbrev ninf : EReal := Ideal.ofBits .f32 0xFF800000#32

/-- The maximum of a finite family, from −∞. -/
def rmax {n : ℕ} (f : Fin n → EReal) : EReal := (Finset.univ : Finset (Fin n)).fold max ninf f

/-- Softmax of a finite family: shift by max(−∞, its maximum), exponentiate, divide by the sum of the exponentials. -/
def softmax {n : ℕ} (f : Fin n → EReal) (k : Fin n) : EReal :=
  Ideal.div (Ideal.exp (f k - max ninf (rmax f))) (∑ j : Fin n, Ideal.exp (f j - max ninf (rmax f)))

/-- The inner products of one query row with every key row. -/
def energy {N D : ℕ} (q : Fin N → EReal) (kv : Fin D → Fin N → EReal) (d : Fin D) : EReal :=
  ∑ n : Fin N, q n * kv d n

/-- The row's maximum minus each entry. -/
def flipped {D : ℕ} (e : Fin D → EReal) (d : Fin D) : EReal := rmax e - e d

/-- The attention weights of one query row. -/
def attn {N D : ℕ} (q : Fin N → EReal) (kv : Fin D → Fin N → EReal) : Fin D → EReal :=
  softmax (flipped (energy q kv))

/-- The attention-weighted mixture of the value rows. -/
def mixed {N D : ℕ} (q : Fin N → EReal) (kv : Fin D → Fin N → EReal) (n : Fin N) : EReal :=
  ∑ d : Fin D, attn q kv d * kv d n

/-- A finite extended real minus itself is zero. -/
theorem sub_self_of_finite {x : EReal} (h1 : x ≠ ⊤) (h2 : x ≠ ⊥) : x - x = 0 := by
  lift x to ℝ using ⟨h1, h2⟩
  rw [← EReal.coe_sub, sub_self, EReal.coe_zero]

/-- The three-product spelling of the energy — q·kv + q·(kv − kv) + (q − q)·kv — is the plain inner product when every
    entry is finite: the two correction sums vanish term by term. -/
theorem energy_three {N D : ℕ} (q : Fin N → EReal) (kv : Fin D → Fin N → EReal)
    (hq : ∀ n, q n ≠ ⊤ ∧ q n ≠ ⊥) (hkv : ∀ d n, kv d n ≠ ⊤ ∧ kv d n ≠ ⊥) (d : Fin D) :
    ((∑ n : Fin N, q n * kv d n) + ∑ n : Fin N, q n * (kv d n - kv d n)) + (∑ n : Fin N, (q n - q n) * kv d n)
      = energy q kv d := by
  have e1 : (∑ n : Fin N, q n * (kv d n - kv d n)) = 0 :=
    Finset.sum_eq_zero fun n _ => by rw [sub_self_of_finite (hkv d n).1 (hkv d n).2, mul_zero]
  have e2 : (∑ n : Fin N, (q n - q n) * kv d n) = 0 :=
    Finset.sum_eq_zero fun n _ => by rw [sub_self_of_finite (hq n).1 (hq n).2, zero_mul]
  rw [e1, e2, add_zero, add_zero]; rfl

/-! ## The kernel's spelling: the key rows as a high part and a residual, the energy as three inner products -/

/-- The energy as the kernel adds it up: q·hi + q·lo + (q − q)·hi. -/
def energy3 {N D : ℕ} (q : Fin N → EReal) (khi klo : Fin D → Fin N → EReal) (d : Fin D) : EReal :=
  ((∑ n : Fin N, q n * khi d n) + ∑ n : Fin N, q n * klo d n) + ∑ n : Fin N, (q n - q n) * khi d n

/-- The mixture of the high parts weighted by the attention of the three-product energy. -/
def mixed3 {N D : ℕ} (q : Fin N → EReal) (khi klo : Fin D → Fin N → EReal) (n : Fin N) : EReal :=
  ∑ d : Fin D, softmax (flipped (energy3 q khi klo)) d * khi d n

/-- With the residual kv − kv and every entry finite the three-product mixture is the plain one. -/
theorem mixed3_eq {N D : ℕ} (q : Fin N → EReal) (kv : Fin D → Fin N → EReal)
    (hq : ∀ n, q n ≠ ⊤ ∧ q n ≠ ⊥) (hkv : ∀ d n, kv d n ≠ ⊤ ∧ kv d n ≠ ⊥) :
    mixed3 q kv (fun d n => kv d n - kv d n) = mixed q kv := by
  have e : energy3 q kv (fun d n => kv d n - kv d n) = energy q kv :=
    funext fun d => energy_three q kv hq hkv d
  funext n
  unfold mixed3 mixed attn
  rw [e]

end Cert.Spec

end
-- ==== Proof.Spec.lean ====
/-
  The mathematics both programs compute, on the extended reals, free of any program text.

  For one batch entry and one query channel: with q the channel's row of 4096 numbers and kv the batch entry's
  512 rows of 4096 numbers,
    energy d   = Σ_n q n · kv d n                      (512 numbers)
    flipped d  = (max_d' energy d') − energy d
    attn       = softmax of flipped                     (over the 512 channels)
    mixed n    = Σ_d attn d · kv d n                    (4096 numbers, read as 64 rows of 64)
    out h w    = softmax over w of mixed (64·h + w)
  Every maximum starts from −∞ and every softmax shifts by max(−∞, maximum), exactly as both programs spell it.
-/
import proofs.«145386_j35579509080688_2_alg».proof.Proof.LibAttention
import Idealize.ShloMosaic.Lib.ValueIdx
import Idealize.ShloMosaic.PureOps.Ideal.Laws

noncomputable section

namespace Cert.Spec

open Idealize.ShloMosaic Idealize.ShloMosaic.ValueIdx

/-- Row-major position of (h, w) in a row of 64 · 64 numbers. -/
def hw (h w : Fin 64) : Fin 4096 := ⟨h.val * 64 + w.val, by have := h.isLt; have := w.isLt; omega⟩

/-- The (h, ·) and (·, w) coordinates of a position in a row of 64 · 64 numbers. -/
def hi (n : Fin 4096) : Fin 64 := ⟨n.val / 64, by have := n.isLt; omega⟩
def lo (n : Fin 4096) : Fin 64 := ⟨n.val % 64, Nat.mod_lt _ (by decide)⟩

/-- One output row: the softmax over the width of the mixture read as 64 rows of 64. -/
def outRow (q : Fin 4096 → EReal) (kv : Fin 512 → Fin 4096 → EReal) (h w : Fin 64) : EReal :=
  softmax (fun w' : Fin 64 => mixed q kv (hw h w')) w

/-- Row (b, c) of a [16, 512, 64, 64] array as 4096 numbers. -/
def rowOf (x : (⟨4, ![16, 512, 64, 64]⟩ : Shape).Idx → EReal) (b : Fin 16) (c : Fin 512) (n : Fin 4096) : EReal :=
  x (ix4 b c (hi n) (lo n))

/-- The whole result: entry (b, c, h, w) from query row (b, c) of `xp` and the 512 rows of batch entry b of `xt`. -/
def G (xt xp : (⟨4, ![16, 512, 64, 64]⟩ : Shape).Idx → EReal) : (⟨4, ![16, 512, 64, 64]⟩ : Shape).Idx → EReal :=
  fun i => outRow (rowOf xp (i 0) (i 1)) (fun d => rowOf xt (i 0) d) (i 2) (i 3)

/-- One output row in the kernel's spelling. -/
def outRow3 (q : Fin 4096 → EReal) (khi klo : Fin 512 → Fin 4096 → EReal) (h w : Fin 64) : EReal :=
  softmax (fun w' : Fin 64 => mixed3 q khi klo (hw h w')) w

/-- … and so is the output row. -/
theorem outRow3_eq (q : Fin 4096 → EReal) (kv : Fin 512 → Fin 4096 → EReal)
    (hq : ∀ n, q n ≠ ⊤ ∧ q n ≠ ⊥) (hkv : ∀ d n, kv d n ≠ ⊤ ∧ kv d n ≠ ⊥) (h w : Fin 64) :
    outRow3 q kv (fun d n => kv d n - kv d n) h w = outRow q kv h w :=
  congrArg (fun f : Fin 4096 → EReal => softmax (fun w' : Fin 64 => f (hw h w')) w) (mixed3_eq q kv hq hkv)

/-- Row (b, c) of a [16, 512, 4096] array. -/
def row3 (x : (⟨3, ![16, 512, 4096]⟩ : Shape).Idx → EReal) (b : Fin 16) (c : Fin 512) (n : Fin 4096) : EReal :=
  x (ix3 b c n)

/-- The whole result in the kernel's spelling, from the two [16, 512, 4096] arrays the kernel is launched on. -/
def G3 (qa kva : (⟨3, ![16, 512, 4096]⟩ : Shape).Idx → EReal) : (⟨4, ![16, 512, 64, 64]⟩ : Shape).Idx → EReal :=
  fun i => outRow3 (row3 qa (i 0) (i 1)) (fun d => row3 kva (i 0) d)
    (fun d n => row3 kva (i 0) d n - row3 kva (i 0) d n) (i 2) (i 3)

/-- When the [16, 512, 4096] arrays are the [16, 512, 64, 64] arguments with their last two axes merged, and the arguments
    are finite, the kernel's spelling of the whole result is the plain one. -/
theorem G3_eq_G (xt xp : (⟨4, ![16, 512, 64, 64]⟩ : Shape).Idx → EReal)
    (qa kva : (⟨3, ![16, 512, 4096]⟩ : Shape).Idx → EReal)
    (hqa : ∀ b c n, qa (ix3 b c n) = xp (ix4 b c (hi n) (lo n)))
    (hkva : ∀ b c n, kva (ix3 b c n) = xt (ix4 b c (hi n) (lo n)))
    (fp : ∀ i, xp i ≠ ⊤ ∧ xp i ≠ ⊥) (ft : ∀ i, xt i ≠ ⊤ ∧ xt i ≠ ⊥) :
    G3 qa kva = G xt xp := by
  funext i
  have eq : row3 qa (i 0) (i 1) = rowOf xp (i 0) (i 1) := funext fun n => hqa _ _ _
  have ekv : (fun d => row3 kva (i 0) d) = fun d => rowOf xt (i 0) d := funext fun d => funext fun n => hkva _ _ _
  have step : G3 qa kva i = outRow3 (rowOf xp (i 0) (i 1)) (fun d => rowOf xt (i 0) d)
      (fun d n => rowOf xt (i 0) d n - rowOf xt (i 0) d n) (i 2) (i 3) := by
    show outRow3 (row3 qa (i 0) (i 1)) (fun d => row3 kva (i 0) d)
      (fun d n => (fun d => row3 kva (i 0) d) d n - (fun d => row3 kva (i 0) d) d n) (i 2) (i 3) = _
    rw [eq, ekv]
  exact step.trans (outRow3_eq _ _ (fun n => fp _) (fun d n => ft _) _ _)

end Cert.Spec

end
-- ==== Proof.Finite.lean ====
/-
  The precondition says every entry of both argument arrays is a real number.
-/
import proofs.«145386_j35579509080688_2_alg».proof.Pre_finite_inputs
import proofs.«145386_j35579509080688_2_alg».proof.Proof.Gen.Pre_finite_inputs
import Idealize.ShloMosaic.Lib.ValueIdx
import Idealize.ShloMosaic.Lib.ReduceAll
import Idealize.ShloMosaic.PureOps.Ideal.Laws

noncomputable section

namespace Cert.Finite

open Idealize.ShloMosaic Idealize.ShloMosaic.ValueIdx

/-- The shape with no axes has one index. -/
instance : Subsingleton Cert.Pre_finite_inputs.S_.Idx := ⟨fun a b => funext fun d => d.elim0⟩

/-- An extended real whose absolute value, max x (−x), is strictly below +∞ is neither +∞ nor −∞. -/
theorem finite_of_abs_lt (x : EReal)
    (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨EReal.coe_ne_top r, EReal.coe_ne_bot r⟩

/-- If the finiteness predicate of two arrays is all ones, every entry of each is neither +∞ nor −∞. -/
theorem finite_of_pre (a0 a1 : FVec Ideal Cert.Pre_finite_inputs.S16x512x64x64 .f32)
    (h : Cert.Pre_finite_inputs.fn (F := Ideal) a0 a1 = (fun _ => 1#1)) :
    (∀ i, a0 i ≠ ⊤ ∧ a0 i ≠ ⊥) ∧ (∀ i, a1 i ≠ ⊤ ∧ a1 i ≠ ⊥) := by
  have e := congrFun h ValueIdx.ix0
  dsimp only [Cert.Pre_finite_inputs.fn] at e
  obtain ⟨e0, e1⟩ := IntOp.andi_eq_one.1 e
  exact ⟨fun i => finite_of_abs_lt (a0 i) (Host.reduce_andi_all _ _ _ _ _ e0 i),
    fun i => finite_of_abs_lt (a1 i) (Host.reduce_andi_all _ _ _ _ _ e1 i)⟩

end Cert.Finite

end
-- ==== Proof.PayloadDot.lean ====
/-
  The kernel body's two kinds of matrix product read at an entry.

  Into the zero splat, with one contracted axis each: the energy product contracts the 4096 positions of a query row with
  those of a key row (entry (r, d) is Σ_n lhs (r, n) · rhs (d, n)); the mixing product contracts the 512 channels (entry
  (r, n) is Σ_d lhs (r, d) · rhs (d, n)).
-/
import proofs.«145386_j35579509080688_2_alg».proof.Proof.Gen.KernelIdeal
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The energy product: rows against rows -/

theorem lhsE_0 (i : S128x512.Idx) (q : dot_S128x4096_S512x4096_S128x512_1_1_0_0_n_n.contr.Idx) :
    (dot_S128x4096_S512x4096_S128x512_1_1_0_0_n_n.lhsIdx i q 0).val = (i 0).val := by
  unfold DotDims.lhsIdx
  rw [dif_neg (show ¬(0 : Fin S128x4096.rank) ∈ dot_S128x4096_S512x4096_S128x512_1_1_0_0_n_n.lhsBatch by decide), dif_pos (show (0 : Fin S128x4096.rank) ∈ dot_S128x4096_S512x4096_S128x512_1_1_0_0_n_n.lhsNonContracting by decide)]
  rfl
theorem lhsE_1 (i : S128x512.Idx) (q : dot_S128x4096_S512x4096_S128x512_1_1_0_0_n_n.contr.Idx) :
    (dot_S128x4096_S512x4096_S128x512_1_1_0_0_n_n.lhsIdx i q 1).val = (q ⟨0, by decide⟩).val :=
  dot_S128x4096_S512x4096_S128x512_1_1_0_0_n_n.lhsIdx_val_of_single rfl i q
theorem rhsE_0 (i : S128x512.Idx) (q : dot_S128x4096_S512x4096_S128x512_1_1_0_0_n_n.contr.Idx) :
    (dot_S128x4096_S512x4096_S128x512_1_1_0_0_n_n.rhsIdx i q 0).val = (i 1).val := by
  unfold DotDims.rhsIdx
  rw [dif_neg (show ¬(0 : Fin S512x4096.rank) ∈ dot_S128x4096_S512x4096_S128x512_1_1_0_0_n_n.rhsBatch by decide), dif_pos (show (0 : Fin S512x4096.rank) ∈ dot_S128x4096_S512x4096_S128x512_1_1_0_0_n_n.rhsNonContracting by decide)]
  rfl
theorem rhsE_1 (i : S128x512.Idx) (q : dot_S128x4096_S512x4096_S128x512_1_1_0_0_n_n.contr.Idx) :
    (dot_S128x4096_S512x4096_S128x512_1_1_0_0_n_n.rhsIdx i q 1).val = (q ⟨0, by decide⟩).val :=
  dot_S128x4096_S512x4096_S128x512_1_1_0_0_n_n.rhsIdx_val_of_single rfl i q

/-- The energy product into the zero splat at (r, d): the inner product of row r of the left operand with row d of the
    right one. -/
theorem matmulE_apply (lhs : FVec Ideal S128x4096 .bf16) (rhs : FVec Ideal S512x4096 .bf16) (r : Fin 128) (d : Fin 512) :
    matmul (F := Ideal) dot_S128x4096_S512x4096_S128x512_1_1_0_0_n_n none lhs rhs (constant (F := Ideal) S128x512 .f32 0x00000000#32) (ix2 r d)
      = ∑ n : Fin 4096, lhs (ix2 r n) * rhs (ix2 d n) := by
  refine (Ideal.matmul_constant_zero_apply dot_S128x4096_S512x4096_S128x512_1_1_0_0_n_n none lhs rhs (ix2 r d)).trans ?_
  rw [← Equiv.sum_comp (contrEquiv1 dot_S128x4096_S512x4096_S128x512_1_1_0_0_n_n 4096 rfl rfl).symm]
  refine Finset.sum_congr rfl fun k _ => ?_
  have hk := contrEquiv1_symm_val dot_S128x4096_S512x4096_S128x512_1_1_0_0_n_n 4096 rfl rfl k
  have el : dot_S128x4096_S512x4096_S128x512_1_1_0_0_n_n.lhsIdx (ix2 r d) ((contrEquiv1 dot_S128x4096_S512x4096_S128x512_1_1_0_0_n_n 4096 rfl rfl).symm k) = ix2 r k := funext fun a => Fin.ext (by
    match a with
    | ⟨0, _⟩ => exact lhsE_0 _ _
    | ⟨1, _⟩ => exact (lhsE_1 _ _).trans hk)
  have er : dot_S128x4096_S512x4096_S128x512_1_1_0_0_n_n.rhsIdx (ix2 r d) ((contrEquiv1 dot_S128x4096_S512x4096_S128x512_1_1_0_0_n_n 4096 rfl rfl).symm k) = ix2 d k := funext fun a => Fin.ext (by
    match a with
    | ⟨0, _⟩ => exact rhsE_0 _ _
    | ⟨1, _⟩ => exact (rhsE_1 _ _).trans hk)
  rw [el, er]

/-! ## The mixing product: rows against columns -/

theorem lhsM_0 (i : S128x4096.Idx) (q : dot_S128x512_S512x4096_S128x4096_1_0_0_1_n_n.contr.Idx) :
    (dot_S128x512_S512x4096_S128x4096_1_0_0_1_n_n.lhsIdx i q 0).val = (i 0).val := by
  unfold DotDims.lhsIdx
  rw [dif_neg (show ¬(0 : Fin S128x512.rank) ∈ dot_S128x512_S512x4096_S128x4096_1_0_0_1_n_n.lhsBatch by decide), dif_pos (show (0 : Fin S128x512.rank) ∈ dot_S128x512_S512x4096_S128x4096_1_0_0_1_n_n.lhsNonContracting by decide)]
  rfl
theorem lhsM_1 (i : S128x4096.Idx) (q : dot_S128x512_S512x4096_S128x4096_1_0_0_1_n_n.contr.Idx) :
    (dot_S128x512_S512x4096_S128x4096_1_0_0_1_n_n.lhsIdx i q 1).val = (q ⟨0, by decide⟩).val :=
  dot_S128x512_S512x4096_S128x4096_1_0_0_1_n_n.lhsIdx_val_of_single rfl i q
theorem rhsM_0 (i : S128x4096.Idx) (q : dot_S128x512_S512x4096_S128x4096_1_0_0_1_n_n.contr.Idx) :
    (dot_S128x512_S512x4096_S128x4096_1_0_0_1_n_n.rhsIdx i q 0).val = (q ⟨0, by decide⟩).val :=
  dot_S128x512_S512x4096_S128x4096_1_0_0_1_n_n.rhsIdx_val_of_single rfl i q
theorem rhsM_1 (i : S128x4096.Idx) (q : dot_S128x512_S512x4096_S128x4096_1_0_0_1_n_n.contr.Idx) :
    (dot_S128x512_S512x4096_S128x4096_1_0_0_1_n_n.rhsIdx i q 1).val = (i 1).val := by
  unfold DotDims.rhsIdx
  rw [dif_neg (show ¬(1 : Fin S512x4096.rank) ∈ dot_S128x512_S512x4096_S128x4096_1_0_0_1_n_n.rhsBatch by decide), dif_pos (show (1 : Fin S512x4096.rank) ∈ dot_S128x512_S512x4096_S128x4096_1_0_0_1_n_n.rhsNonContracting by decide)]
  rfl

/-- The mixing product into the zero splat at (r, n): row r of the left operand against column n of the right one. -/
theorem matmulM_apply (lhs : FVec Ideal S128x512 .bf16) (rhs : FVec Ideal S512x4096 .bf16) (r : Fin 128) (n : Fin 4096) :
    matmul (F := Ideal) dot_S128x512_S512x4096_S128x4096_1_0_0_1_n_n none lhs rhs (constant (F := Ideal) S128x4096 .f32 0x00000000#32) (ix2 r n)
      = ∑ d : Fin 512, lhs (ix2 r d) * rhs (ix2 d n) := by
  refine (Ideal.matmul_constant_zero_apply dot_S128x512_S512x4096_S128x4096_1_0_0_1_n_n none lhs rhs (ix2 r n)).trans ?_
  rw [← Equiv.sum_comp (contrEquiv1 dot_S128x512_S512x4096_S128x4096_1_0_0_1_n_n 512 rfl rfl).symm]
  refine Finset.sum_congr rfl fun k _ => ?_
  have hk := contrEquiv1_symm_val dot_S128x512_S512x4096_S128x4096_1_0_0_1_n_n 512 rfl rfl k
  have el : dot_S128x512_S512x4096_S128x4096_1_0_0_1_n_n.lhsIdx (ix2 r n) ((contrEquiv1 dot_S128x512_S512x4096_S128x4096_1_0_0_1_n_n 512 rfl rfl).symm k) = ix2 r k := funext fun a => Fin.ext (by
    match a with
    | ⟨0, _⟩ => exact lhsM_0 _ _
    | ⟨1, _⟩ => exact (lhsM_1 _ _).trans hk)
  have er : dot_S128x512_S512x4096_S128x4096_1_0_0_1_n_n.rhsIdx (ix2 r n) ((contrEquiv1 dot_S128x512_S512x4096_S128x4096_1_0_0_1_n_n 512 rfl rfl).symm k) = ix2 k n := funext fun a => Fin.ext (by
    match a with
    | ⟨0, _⟩ => exact (rhsM_0 _ _).trans hk
    | ⟨1, _⟩ => exact rhsM_1 _ _)
  rw [el, er]

end Cert.KernelIdeal.Payload

end
-- ==== Proof.PayloadLayout.lean ====
/-
  Layout and reduction operations of the kernel body read at an index given by coordinates.

  A column kept after a reduction: a vector of a entries viewed as an [a, 1] column reads its entry, and the column
  spread over b lanes reads the row's one entry at every lane; the same one rank up ([a, b] to [a, b, 1] to [a, b, c]).
  A row of 4096 numbers viewed as 64 rows of 64 reads position 64·h + w at (h, w). A maximum over the last axis from −∞
  is the fold of max over that axis's coordinates, a sum over the last axis the sum over them.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx

variable {α : Type}

/-! ## Kept columns -/

/-- An [a] vector viewed as an [a, 1] column reads, at (i, u), entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread over b lanes reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector kept as a column and spread over b lanes reads, at (p, c), the vector's entry p. -/
theorem keepdims2_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- An [a, b] array viewed as [a, b, 1] reads, at (i, j, u), entry (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array spread over c lanes reads, at (p, q, e), entry (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, b] array kept as [a, b, 1] and spread over c lanes reads, at (p, q, e), entry (p, q). -/
theorem keepdims3_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (p : Fin a) (q : Fin b) (e : Fin c) :
    broadcastTo ⟨3, ![a, b, c]⟩ (shapeCast ⟨3, ![a, b, 1]⟩ x hc) hb (ix3 p q e) = x (ix2 p q) :=
  (broadcastTo_ab1_abc_apply _ hb p q e).trans (shapeCast_ab_ab1_apply x hc p q 0)

/-! ## A row of 4096 read as 64 rows of 64 -/

/-- An [a, 4096] array viewed as [a, 64, 64] reads, at (r, h, w), entry (r, k) with k = 64·h + w. -/
theorem shapeCast_rows64_apply {a : ℕ} (x : (⟨2, ![a, 4096]⟩ : Shape).Idx → α)
    (hs : (⟨2, ![a, 4096]⟩ : Shape).ShapeCasts ⟨3, ![a, 64, 64]⟩) (r : Fin a) (h w : Fin 64) (k : Fin 4096)
    (hk : k.val = h.val * 64 + w.val) :
    shapeCast ⟨3, ![a, 64, 64]⟩ x hs (ix3 r h w) = x (ix2 r k) :=
  shapeCast_apply x hs _ _ (by
    rw [Shape.rowMajor_val_three, Shape.rowMajor_val_two]
    show r.val * 4096 + k.val = (r.val * 64 + h.val) * 64 + w.val
    omega)

/-! ## Reductions over the last axis -/

/-- Row r of an [a, b] array with column k put back is (r, k). -/
theorem lift_last2 {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  match c with
  | ⟨0, _⟩ => rfl
  | ⟨1, _⟩ => rfl

/-- Entry (r, q) of an [a, b, c] array with the last coordinate k put back is (r, q, k). -/
theorem lift_last3 {a b c : ℕ} (h : (⟨3, ![a, b, c]⟩ : Shape).Reduces [2] ⟨2, ![a, b]⟩) (r : Fin a) (q : Fin b)
    (k : Fin ((⟨3, ![a, b, c]⟩ : Shape).size 2)) : h.lift (ix2 r q) k = ix3 r q (⟨k.val, k.isLt⟩ : Fin c) := by
  funext e; apply Fin.ext
  match e with
  | ⟨0, _⟩ => rfl
  | ⟨1, _⟩ => rfl
  | ⟨2, _⟩ => rfl

/-- The maximum over the columns of an [a, b] array from −∞, at row r: the fold of max over the row. -/
theorem max_last2_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ v 0xFF800000#32 h hφ hacc (ix1 r)
      = (Finset.univ : Finset (Fin b)).fold max (Ideal.ofBits .f32 0xFF800000#32) (fun d => v (ix2 r d)) := by
  refine (Ideal.multiReduction_maximumf_single v 0xFF800000#32 h hφ hacc (ix1 r)).trans ?_
  have hf : (v ∘ h.lift (ix1 r)) = fun d : Fin b => v (ix2 r d) := funext fun k => congrArg v (lift_last2 h r k)
  exact congrArg (fun f => Finset.fold max (Ideal.ofBits .f32 0xFF800000#32) f (Finset.univ : Finset (Fin b))) hf

/-- The sum over the columns of an [a, b] array, at row r: the sum over the row. -/
theorem sum_last2_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ v 0x00000000#32 h hφ hacc (ix1 r) = ∑ d : Fin b, v (ix2 r d) := by
  refine (Ideal.multiReduction_add_single v 0x00000000#32 h hφ hacc (ix1 r)).trans ?_
  exact Finset.sum_congr rfl fun k _ => congrArg v (lift_last2 h r k)

/-- The maximum over the last axis of an [a, b, c] array from −∞, at (r, q): the fold of max over that axis. -/
theorem max_last3_apply {a b c : ℕ} (v : FVec Ideal ⟨3, ![a, b, c]⟩ .f32)
    (h : (⟨3, ![a, b, c]⟩ : Shape).Reduces [2] ⟨2, ![a, b]⟩) (hφ : FKind.Formats .f32)
    (hacc : (0xFF800000#32 : BitVec 32) = FKind.maximumf.neutral .f32 hφ) (r : Fin a) (q : Fin b) :
    multiReduction (F := Ideal) .maximumf [2] ⟨2, ![a, b]⟩ v 0xFF800000#32 h hφ hacc (ix2 r q)
      = (Finset.univ : Finset (Fin c)).fold max (Ideal.ofBits .f32 0xFF800000#32) (fun e => v (ix3 r q e)) := by
  refine (Ideal.multiReduction_maximumf_single v 0xFF800000#32 h hφ hacc (ix2 r q)).trans ?_
  have hf : (v ∘ h.lift (ix2 r q)) = fun e : Fin c => v (ix3 r q e) := funext fun k => congrArg v (lift_last3 h r q k)
  exact congrArg (fun f => Finset.fold max (Ideal.ofBits .f32 0xFF800000#32) f (Finset.univ : Finset (Fin c))) hf

/-- The sum over the last axis of an [a, b, c] array, at (r, q): the sum over that axis. -/
theorem sum_last3_apply {a b c : ℕ} (v : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (r : Fin a) (q : Fin b) :
    multiReduction (F := Ideal) .add [2] ⟨2, ![a, b]⟩ v 0x00000000#32 h hφ hacc (ix2 r q) = ∑ e : Fin c, v (ix3 r q e) := by
  refine (Ideal.multiReduction_add_single v 0x00000000#32 h hφ hacc (ix2 r q)).trans ?_
  exact Finset.sum_congr rfl fun k _ => congrArg v (lift_last3 h r q k)

end Cert.KernelIdeal.Payload

end
-- ==== Proof.PayloadSoftmax.lean ====
/-
  The kernel body's softmax over the last axis, read at an entry.

  The body spells a softmax over the last axis the same way twice (over the 512 channels of an energy row, and over the
  64 columns of a mixed row): the maximum over the axis from −∞, the larger of that and −∞, kept as a column and spread
  back over the axis, subtracted, exponentiated; the exponentials' sum over the axis, kept and spread back, divides them.
  At an entry that is the softmax of the entry's row. The row maximum minus each entry, spelt with the same kept
  column, is the flipped row.
-/
import proofs.«145386_j35579509080688_2_alg».proof.Proof.PayloadLayout
import proofs.«145386_j35579509080688_2_alg».proof.Proof.Spec

noncomputable section

namespace Cert.KernelIdeal.Payload

open Idealize.ShloMosaic Idealize.ShloMosaic.ValueIdx

/-! ## Over the columns of an [a, b] array -/

section Rank2
variable {a b : ℕ} (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hm : (0xFF800000#32 : BitVec 32) = FKind.maximumf.neutral .f32 hφ) (hz : (0x00000000#32 : BitVec 32) = FKind.add.neutral .f32 hφ)

/-- The row maximum, spread back over the row, minus each entry: the flipped row. -/
theorem flipped_last2_apply (e : FVec Ideal ⟨2, ![a, b]⟩ .f32) (r : Fin a) (d : Fin b) :
    subf (broadcastTo ⟨2, ![a, b]⟩ (shapeCast ⟨2, ![a, 1]⟩
        (multiReduction (F := Ideal) .maximumf [1] ⟨1, ![a]⟩ e 0xFF800000#32 hr hφ hm) hc) hb) e (ix2 r d)
      = Cert.Spec.flipped (fun d' => e (ix2 r d')) d := by
  show broadcastTo ⟨2, ![a, b]⟩ (shapeCast ⟨2, ![a, 1]⟩
        (multiReduction (F := Ideal) .maximumf [1] ⟨1, ![a]⟩ e 0xFF800000#32 hr hφ hm) hc) hb (ix2 r d) - e (ix2 r d) = _
  refine congrArg (· - e (ix2 r d)) ?_
  exact (keepdims2_apply _ hc hb r d).trans (max_last2_apply e hr hφ hm r)

/-- The exponential of each entry minus max(−∞, its row's maximum), as the body spells it. -/
abbrev shift2 (f : FVec Ideal ⟨2, ![a, b]⟩ .f32) : FVec Ideal ⟨2, ![a, b]⟩ .f32 :=
  exp (subf f (broadcastTo ⟨2, ![a, b]⟩ (shapeCast ⟨2, ![a, 1]⟩
    (maximumf (broadcast ⟨1, ![a]⟩ (Scalar.ofBits (F := Ideal) .f32 0xFF800000#32))
      (multiReduction (F := Ideal) .maximumf [1] ⟨1, ![a]⟩ f 0xFF800000#32 hr hφ hm)) hc) hb))

theorem shift2_apply (f : FVec Ideal ⟨2, ![a, b]⟩ .f32) (r : Fin a) (d : Fin b) :
    shift2 hr hc hb hφ hm f (ix2 r d)
      = Ideal.exp (f (ix2 r d) - max Cert.Spec.ninf (Cert.Spec.rmax fun d' => f (ix2 r d'))) := by
  show Ideal.exp (f (ix2 r d) - broadcastTo ⟨2, ![a, b]⟩ (shapeCast ⟨2, ![a, 1]⟩
    (maximumf (broadcast ⟨1, ![a]⟩ (Scalar.ofBits (F := Ideal) .f32 0xFF800000#32))
      (multiReduction (F := Ideal) .maximumf [1] ⟨1, ![a]⟩ f 0xFF800000#32 hr hφ hm)) hc) hb (ix2 r d)) = _
  refine congrArg (fun m => Ideal.exp (f (ix2 r d) - m)) ?_
  refine (keepdims2_apply _ hc hb r d).trans ?_
  show max (Ideal.ofBits .f32 0xFF800000#32) (multiReduction (F := Ideal) .maximumf [1] ⟨1, ![a]⟩ f 0xFF800000#32 hr hφ hm (ix1 r)) = _
  exact congrArg (max Cert.Spec.ninf) (max_last2_apply f hr hφ hm r)

/-- Each entry divided by its row's sum, the sum kept as a column and spread back. -/
theorem normalize2_apply (g : FVec Ideal ⟨2, ![a, b]⟩ .f32) (r : Fin a) (d : Fin b) :
    divf g (broadcastTo ⟨2, ![a, b]⟩ (shapeCast ⟨2, ![a, 1]⟩
        (multiReduction (F := Ideal) .add [1] ⟨1, ![a]⟩ g 0x00000000#32 hr hφ hz) hc) hb) (ix2 r d)
      = Ideal.div (g (ix2 r d)) (∑ d' : Fin b, g (ix2 r d')) := by
  show Ideal.div (g (ix2 r d)) (broadcastTo ⟨2, ![a, b]⟩ (shapeCast ⟨2, ![a, 1]⟩
        (multiReduction (F := Ideal) .add [1] ⟨1, ![a]⟩ g 0x00000000#32 hr hφ hz) hc) hb (ix2 r d)) = _
  refine congrArg (Ideal.div (g (ix2 r d))) ?_
  exact (keepdims2_apply _ hc hb r d).trans (sum_last2_apply g hr hφ hz r)

/-- The body's softmax over the columns, at (r, d): the softmax of row r at d. -/
theorem softmax_last2_apply (f : FVec Ideal ⟨2, ![a, b]⟩ .f32) (r : Fin a) (d : Fin b) :
    divf (shift2 hr hc hb hφ hm f) (broadcastTo ⟨2, ![a, b]⟩ (shapeCast ⟨2, ![a, 1]⟩
        (multiReduction (F := Ideal) .add [1] ⟨1, ![a]⟩ (shift2 hr hc hb hφ hm f) 0x00000000#32 hr hφ hz) hc) hb) (ix2 r d)
      = Cert.Spec.softmax (fun d' => f (ix2 r d')) d := by
  refine (normalize2_apply hr hc hb hφ hz (shift2 hr hc hb hφ hm f) r d).trans ?_
  unfold Cert.Spec.softmax
  rw [shift2_apply hr hc hb hφ hm f r d]
  exact congrArg (Ideal.div _) (Finset.sum_congr rfl fun d' _ => shift2_apply hr hc hb hφ hm f r d')

end Rank2

/-! ## Over the last axis of an [a, b, c] array -/

section Rank3
variable {a b c : ℕ} (hr : (⟨3, ![a, b, c]⟩ : Shape).Reduces [2] ⟨2, ![a, b]⟩)
  (hc : (⟨2, ![a, b]⟩ : Shape).ShapeCasts ⟨3, ![a, b, 1]⟩) (hb : (⟨3, ![a, b, 1]⟩ : Shape).Broadcasts ⟨3, ![a, b, c]⟩)
  (hφ : FKind.Formats .f32) (hm : (0xFF800000#32 : BitVec 32) = FKind.maximumf.neutral .f32 hφ)
  (hz : (0x00000000#32 : BitVec 32) = FKind.add.neutral .f32 hφ)

/-- The exponential of each entry minus max(−∞, the maximum over its last axis), as the body spells it. -/
abbrev shift3 (f : FVec Ideal ⟨3, ![a, b, c]⟩ .f32) : FVec Ideal ⟨3, ![a, b, c]⟩ .f32 :=
  exp (subf f (broadcastTo ⟨3, ![a, b, c]⟩ (shapeCast ⟨3, ![a, b, 1]⟩
    (maximumf (broadcast ⟨2, ![a, b]⟩ (Scalar.ofBits (F := Ideal) .f32 0xFF800000#32))
      (multiReduction (F := Ideal) .maximumf [2] ⟨2, ![a, b]⟩ f 0xFF800000#32 hr hφ hm)) hc) hb))

theorem shift3_apply (f : FVec Ideal ⟨3, ![a, b, c]⟩ .f32) (r : Fin a) (q : Fin b) (e : Fin c) :
    shift3 hr hc hb hφ hm f (ix3 r q e)
      = Ideal.exp (f (ix3 r q e) - max Cert.Spec.ninf (Cert.Spec.rmax fun e' => f (ix3 r q e'))) := by
  show Ideal.exp (f (ix3 r q e) - broadcastTo ⟨3, ![a, b, c]⟩ (shapeCast ⟨3, ![a, b, 1]⟩
    (maximumf (broadcast ⟨2, ![a, b]⟩ (Scalar.ofBits (F := Ideal) .f32 0xFF800000#32))
      (multiReduction (F := Ideal) .maximumf [2] ⟨2, ![a, b]⟩ f 0xFF800000#32 hr hφ hm)) hc) hb (ix3 r q e)) = _
  refine congrArg (fun m => Ideal.exp (f (ix3 r q e) - m)) ?_
  refine (keepdims3_apply _ hc hb r q e).trans ?_
  show max (Ideal.ofBits .f32 0xFF800000#32) (multiReduction (F := Ideal) .maximumf [2] ⟨2, ![a, b]⟩ f 0xFF800000#32 hr hφ hm (ix2 r q)) = _
  exact congrArg (max Cert.Spec.ninf) (max_last3_apply f hr hφ hm r q)

/-- Each entry divided by the sum over its last axis, the sum kept and spread back. -/
theorem normalize3_apply (g : FVec Ideal ⟨3, ![a, b, c]⟩ .f32) (r : Fin a) (q : Fin b) (e : Fin c) :
    divf g (broadcastTo ⟨3, ![a, b, c]⟩ (shapeCast ⟨3, ![a, b, 1]⟩
        (multiReduction (F := Ideal) .add [2] ⟨2, ![a, b]⟩ g 0x00000000#32 hr hφ hz) hc) hb) (ix3 r q e)
      = Ideal.div (g (ix3 r q e)) (∑ e' : Fin c, g (ix3 r q e')) := by
  show Ideal.div (g (ix3 r q e)) (broadcastTo ⟨3, ![a, b, c]⟩ (shapeCast ⟨3, ![a, b, 1]⟩
        (multiReduction (F := Ideal) .add [2] ⟨2, ![a, b]⟩ g 0x00000000#32 hr hφ hz) hc) hb (ix3 r q e)) = _
  refine congrArg (Ideal.div (g (ix3 r q e))) ?_
  exact (keepdims3_apply _ hc hb r q e).trans (sum_last3_apply g hr hφ hz r q)

/-- The body's softmax over the last axis, at (r, q, e): the softmax of the entries over (r, q) at e. -/
theorem softmax_last3_apply (f : FVec Ideal ⟨3, ![a, b, c]⟩ .f32) (r : Fin a) (q : Fin b) (e : Fin c) :
    divf (shift3 hr hc hb hφ hm f) (broadcastTo ⟨3, ![a, b, c]⟩ (shapeCast ⟨3, ![a, b, 1]⟩
        (multiReduction (F := Ideal) .add [2] ⟨2, ![a, b]⟩ (shift3 hr hc hb hφ hm f) 0x00000000#32 hr hφ hz) hc) hb) (ix3 r q e)
      = Cert.Spec.softmax (fun e' => f (ix3 r q e')) e := by
  refine (normalize3_apply hr hc hb hφ hz (shift3 hr hc hb hφ hm f) r q e).trans ?_
  unfold Cert.Spec.softmax
  rw [shift3_apply hr hc hb hφ hm f r q e]
  exact congrArg (Ideal.div _) (Finset.sum_congr rfl fun e' _ => shift3_apply hr hc hb hφ hm f r q e')

end Rank3

end Cert.KernelIdeal.Payload

end
-- ==== Proof.PayloadEnergy.lean ====
/-
  The mixture block of the kernel body read at an entry.

  From the 128 query rows of the block and the two carried arrays of key rows the body computes the energy as three
  products added up (the rows against the stored key rows, against their residual, and the rows' own residual against the
  stored key rows), flips it against its row maximum, takes the softmax over the 512 channels, mixes the stored key rows
  with those weights, and reads each mixed row of 4096 numbers as 64 rows of 64. Entry (r, h, w) of that block is the
  three-product mixture of query row r at position 64·h + w.
-/
import proofs.«145386_j35579509080688_2_alg».proof.Proof.Gen.KernelIdeal.Skeleton
import proofs.«145386_j35579509080688_2_alg».proof.Proof.Spec
import proofs.«145386_j35579509080688_2_alg».proof.Proof.PayloadDot
import proofs.«145386_j35579509080688_2_alg».proof.Proof.PayloadSoftmax

noncomputable section

namespace Cert.KernelIdeal.Payload

open Cert.KernelIdeal Cert.KernelIdeal.Gen Idealize.ShloMosaic Idealize.ShloMosaic.ValueIdx

/-- The three products added up, at (r, d): the three-product energy of query row r against key row d. The format
    changes on the way into each product are the identity on the extended reals. -/
theorem energy_apply (q : FVec Ideal S128x4096 .f32) (xs0 xs1 : FVec Ideal S512x4096 .bf16) (r : Fin 128) (d : Fin 512) :
    addf (addf (matmul (F := Ideal) dot_S128x4096_S512x4096_S128x512_1_1_0_0_n_n none (truncf .bf16 q bitsLt_bf16_f32) xs0 (constant (F := Ideal) S128x512 .f32 0x00000000#32))
               (matmul (F := Ideal) dot_S128x4096_S512x4096_S128x512_1_1_0_0_n_n none (truncf .bf16 q bitsLt_bf16_f32) xs1 (constant (F := Ideal) S128x512 .f32 0x00000000#32)))
         (matmul (F := Ideal) dot_S128x4096_S512x4096_S128x512_1_1_0_0_n_n none (truncf .bf16 (subf q q) bitsLt_bf16_f32) xs0 (constant (F := Ideal) S128x512 .f32 0x00000000#32)) (ix2 r d)
      = Cert.Spec.energy3 (fun n => q (ix2 r n)) (fun d n => xs0 (ix2 d n)) (fun d n => xs1 (ix2 d n)) d := by
  show matmul (F := Ideal) dot_S128x4096_S512x4096_S128x512_1_1_0_0_n_n none (truncf .bf16 q bitsLt_bf16_f32) xs0 (constant (F := Ideal) S128x512 .f32 0x00000000#32) (ix2 r d)
        + matmul (F := Ideal) dot_S128x4096_S512x4096_S128x512_1_1_0_0_n_n none (truncf .bf16 q bitsLt_bf16_f32) xs1 (constant (F := Ideal) S128x512 .f32 0x00000000#32) (ix2 r d)
        + matmul (F := Ideal) dot_S128x4096_S512x4096_S128x512_1_1_0_0_n_n none (truncf .bf16 (subf q q) bitsLt_bf16_f32) xs0 (constant (F := Ideal) S128x512 .f32 0x00000000#32) (ix2 r d) = _
  exact congrArg₂ (· + ·)
    (congrArg₂ (· + ·) (matmulE_apply (truncf .bf16 q bitsLt_bf16_f32) xs0 r d) (matmulE_apply (truncf .bf16 q bitsLt_bf16_f32) xs1 r d))
    (matmulE_apply (truncf .bf16 (subf q q) bitsLt_bf16_f32) xs0 r d)

/-- The mixture block at (r, h, w): the three-product mixture of query row r at position 64·h + w. -/
theorem pay5_apply (x0 : Vec Ideal S1x128x4096 .f32) (xs0 xs1 : Vec Ideal S512x4096 .bf16) (r : Fin 128) (h w : Fin 64) :
    k0_pay5 (F := Ideal) x0 xs0 xs1 (ix3 r h w)
      = Cert.Spec.mixed3 (fun n => x0 (ix3 (0 : Fin 1) r n)) (fun d n => xs0 (ix2 d n)) (fun d n => xs1 (ix2 d n))
          (Cert.Spec.hw h w) := by
  unfold k0_pay5
  -- the mixed row of 4096 read as 64 rows of 64
  refine (shapeCast_rows64_apply _ _ r h w (Cert.Spec.hw h w) rfl).trans ?_
  -- the mixing product over the 512 channels
  refine (matmulM_apply _ xs0 r (Cert.Spec.hw h w)).trans ?_
  unfold Cert.Spec.mixed3
  refine Finset.sum_congr rfl fun d _ => congrArg (· * xs0 (ix2 d (Cert.Spec.hw h w))) ?_
  -- the attention weight: the softmax over the channels of the flipped energy
  refine (truncf_apply (φ := .f32) (ψ := .bf16) _ _ (ix2 r d)).trans ?_
  refine (softmax_last2_apply _ _ _ _ _ _ _ r d).trans ?_
  refine congrArg (fun f => Cert.Spec.softmax f d) (funext fun d' => ?_)
  refine (flipped_last2_apply _ _ _ _ _ _ r d').trans ?_
  refine congrArg (fun e => Cert.Spec.flipped e d') (funext fun d'' => ?_)
  -- the energy, and the query row read out of its block
  refine (energy_apply _ xs0 xs1 r d'').trans ?_
  exact congrArg (fun q => Cert.Spec.energy3 q (fun d n => xs0 (ix2 d n)) (fun d n => xs1 (ix2 d n)) d'')
    (funext fun n => shapeCast_1ab_ab_apply x0 _ r n)

end Cert.KernelIdeal.Payload

end
-- ==== Proof.Payload.lean ====
/-
  The kernel body's arithmetic read at one entry.

  The body computes, from the 128 query rows of its block (x0) and the two carried arrays of key rows (xs0 the rows as
  stored, xs1 their residual), one [128, 64, 64] block: entry (r, h, w) is the output row of query row r — the
  three-product energy against the 512 key rows, the flipped softmax over the channels, the mixture of the stored rows,
  and the softmax over the width. What the two carried arrays hold, from the block of key rows x1 they are filled from, is
  the row itself and the row minus itself.
-/
import proofs.«145386_j35579509080688_2_alg».proof.Proof.Gen.KernelIdeal.Skeleton
import proofs.«145386_j35579509080688_2_alg».proof.Proof.Spec
import proofs.«145386_j35579509080688_2_alg».proof.Proof.PayloadEnergy
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The first carried array, filled from a block of key rows, holds the rows. -/
theorem pay3_apply (x1 : Vec Ideal S1x512x4096 .f32) (d : Fin 512) (n : Fin 4096) :
    k0_pay3 (F := Ideal) x1 (ix2 d n) = x1 (ix3 (0 : Fin 1) d n) := by
  unfold k0_pay3 k0_pay2
  -- a cast of a shape to itself, a format change that is the identity, and the block's leading unit axis dropped
  refine (congrFun (shapeCast_self _ _) (ix2 d n)).trans ?_
  refine (truncf_apply (φ := .f32) (ψ := .bf16) _ _ (ix2 d n)).trans ?_
  exact shapeCast_1ab_ab_apply x1 _ d n

/-- The second carried array holds each entry minus itself. -/
theorem pay4_apply (x1 : Vec Ideal S1x512x4096 .f32) (d : Fin 512) (n : Fin 4096) :
    k0_pay4 (F := Ideal) x1 (ix2 d n) = x1 (ix3 (0 : Fin 1) d n) - x1 (ix3 (0 : Fin 1) d n) := by
  unfold k0_pay4 k0_pay2
  refine (congrFun (shapeCast_self _ _) (ix2 d n)).trans ?_
  refine (truncf_apply (φ := .f32) (ψ := .bf16) _ _ (ix2 d n)).trans ?_
  -- the row read out of its block, minus itself
  exact congrArg₂ (· - ·) (shapeCast_1ab_ab_apply x1 _ d n) (shapeCast_1ab_ab_apply x1 _ d n)

/-- The stored block at (0, r, h, w): the output row of query row r against the carried key rows. -/
theorem pay_out_apply (x0 : Vec Ideal S1x128x4096 .f32) (xs0 xs1 : Vec Ideal S512x4096 .bf16)
    (r : Fin 128) (h w : Fin 64) :
    k0_pay1 (F := Ideal) (k0_pay5 x0 xs0 xs1) (k0_pay6 x0 xs0 xs1) (ix4 (0 : Fin 1) r h w)
      = Cert.Spec.outRow3 (fun n => x0 (ix3 (0 : Fin 1) r n)) (fun d n => xs0 (ix2 d n)) (fun d n => xs1 (ix2 d n)) h w := by
  unfold k0_pay1 k0_pay6
  -- the leading unit axis of the stored block
  refine (shapeCast_abc_1abc_apply _ _ (0 : Fin 1) r h w).trans ?_
  -- the softmax over the width of the mixture block's row (r, h)
  refine (softmax_last3_apply _ _ _ _ _ _ (k0_pay5 (F := Ideal) x0 xs0 xs1) r h w).trans ?_
  unfold Cert.Spec.outRow3
  exact congrArg (fun f => Cert.Spec.softmax f w) (funext fun w' => pay5_apply x0 xs0 xs1 r h w')

end Cert.KernelIdeal.Payload

end
-- ==== Proof.CarriedPieces.lean ====
/-
  What each of the body's two control cases leaves, in terms of the body's arithmetic.

  Where the grid's second coordinate is 0 the body fills the two carried arrays from the key block, reads them back, and
  computes the output block from the query block and what it has just read back; elsewhere it computes the output block
  from the query block and the carried arrays as it finds them. Every store and every load is of a whole array, so what a
  store leaves is its payload and what a load reads is the array's contents.
-/
import proofs.«145386_j35579509080688_2_alg».proof.Proof.Gen.KernelIdeal.Frame
import Idealize.ShloMosaic.Lib.Pipeline.Value
import Idealize.ShloMosaic.Lib.Tactic

set_option maxRecDepth 16384

noncomputable section

namespace Cert.KernelIdeal.Carried

open Cert.KernelIdeal Cert.KernelIdeal.Gen Idealize.ShloMosaic Idealize.ShloMosaic.TcCoe Idealize.SL.Sem
open Idealize.ShloMosaic.Tactic

variable {F : FTy → Type} [FloatOps F]

/-- Zero offsets on two, three and four axes, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Where the second grid coordinate is 0, the first carried array is left holding the key block rounded to bf16. -/
theorem sout_A_0 (c : Dev nD) (i : grid0.Coords) (arg2 : Memref sig .tc .vmem S1x128x4096 .f32) (harg2 : arg2.IsWhole) (arg3 : Memref sig .tc .vmem S1x512x4096 .f32) (harg3 : arg3.IsWhole) (arg4 : Memref sig .tc .vmem S1x128x64x64 .f32) (harg4 : arg4.IsWhole) (arg5 : Memref sig .tc .vmem S512x4096 .bf16) (harg5 : arg5.IsWhole) (arg6 : Memref sig .tc .vmem S512x4096 .bf16) (harg6 : arg6.IsWhole) (hc0 : cond0_0 i) (x0 : Vec F S1x128x4096 .f32) (x1 : Vec F S1x512x4096 .f32) :
    sout0_A_0 c i arg2 harg2 arg3 harg3 arg4 harg4 arg5 harg5 arg6 harg6 hc0 x0 x1 = k0_pay3 x1 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_unit_zero (S := S512x4096) hz2]
  simp only [View.readAt_eq_ld, harg3.read_unread, View.ld_unit_zero (S := S1x512x4096) hz3]

/-- … and the second holding the residual of that rounding, rounded to bf16. -/
theorem sout_A_1 (c : Dev nD) (i : grid0.Coords) (arg2 : Memref sig .tc .vmem S1x128x4096 .f32) (harg2 : arg2.IsWhole) (arg3 : Memref sig .tc .vmem S1x512x4096 .f32) (harg3 : arg3.IsWhole) (arg4 : Memref sig .tc .vmem S1x128x64x64 .f32) (harg4 : arg4.IsWhole) (arg5 : Memref sig .tc .vmem S512x4096 .bf16) (harg5 : arg5.IsWhole) (arg6 : Memref sig .tc .vmem S512x4096 .bf16) (harg6 : arg6.IsWhole) (hc0 : cond0_0 i) (x0 : Vec F S1x128x4096 .f32) (x1 : Vec F S1x512x4096 .f32) :
    sout0_A_1 c i arg2 harg2 arg3 harg3 arg4 harg4 arg5 harg5 arg6 harg6 hc0 x0 x1 = k0_pay4 x1 := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_unit_zero (S := S512x4096) hz2]
  simp only [View.readAt_eq_ld, harg3.read_unread, View.ld_unit_zero (S := S1x512x4096) hz3]

/-- … and the output block is the body's result on the query block and the two arrays just filled (read back whole). -/
theorem out_A_2 (c : Dev nD) (i : grid0.Coords) (arg2 : Memref sig .tc .vmem S1x128x4096 .f32) (harg2 : arg2.IsWhole) (arg3 : Memref sig .tc .vmem S1x512x4096 .f32) (harg3 : arg3.IsWhole) (arg4 : Memref sig .tc .vmem S1x128x64x64 .f32) (harg4 : arg4.IsWhole) (arg5 : Memref sig .tc .vmem S512x4096 .bf16) (harg5 : arg5.IsWhole) (arg6 : Memref sig .tc .vmem S512x4096 .bf16) (harg6 : arg6.IsWhole) (hc0 : cond0_0 i) (x0 : Vec F S1x128x4096 .f32) (x1 : Vec F S1x512x4096 .f32) :
    out0_A_2 c i arg2 harg2 arg3 harg3 arg4 harg4 arg5 harg5 arg6 harg6 hc0 x0 x1
      = k0_pay1 (k0_pay5 x0 (k0_pay3 x1) (k0_pay4 x1)) (k0_pay6 x0 (k0_pay3 x1) (k0_pay4 x1)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero (S := S1x128x64x64) hz4]
  simp only [View.readCov_unit_zero (S := S512x4096) _ hz2, View.readAt_eq_ld, harg2.read_unread, harg3.read_unread,
    View.ld_unit_zero (S := S1x128x4096) hz3, View.ld_unit_zero (S := S1x512x4096) hz3]

/-- Elsewhere the output block is the body's result on the query block and the carried arrays as found. -/
theorem out_B_2 (c : Dev nD) (i : grid0.Coords) (arg2 : Memref sig .tc .vmem S1x128x4096 .f32) (harg2 : arg2.IsWhole) (arg3 : Memref sig .tc .vmem S1x512x4096 .f32) (harg3 : arg3.IsWhole) (arg4 : Memref sig .tc .vmem S1x128x64x64 .f32) (harg4 : arg4.IsWhole) (arg5 : Memref sig .tc .vmem S512x4096 .bf16) (harg5 : arg5.IsWhole) (arg6 : Memref sig .tc .vmem S512x4096 .bf16) (harg6 : arg6.IsWhole) (hc0 : ¬cond0_0 i) (x0 : Vec F S1x128x4096 .f32) (x1 : Vec F S1x512x4096 .f32)
    (xs0 : Vec F S512x4096 .bf16) (xs1 : Vec F S512x4096 .bf16) :
    out0_B_2 c i arg2 harg2 arg3 harg3 arg4 harg4 arg5 harg5 arg6 harg6 hc0 x0 x1 xs0 xs1 = k0_pay1 (k0_pay5 x0 xs0 xs1) (k0_pay6 x0 xs0 xs1) := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  sl_unfold_words
  rw [View.canon_unit_zero (S := S1x128x64x64) hz4]
  simp only [View.readAt_eq_ld, harg2.read_unread, harg5.read_unread, harg6.read_unread,
    View.ld_unit_zero (S := S1x128x4096) hz3, View.ld_unit_zero (S := S512x4096) hz2]

end Cert.KernelIdeal.Carried

end
-- ==== Proof.Carried.lean ====
/-
  What the kernel leaves after each grid point, in terms of the body's arithmetic.

  Grid point t = 4·b + ci works on batch entry b and the ci-th group of 128 query rows. At ci = 0 the body fills the two
  carried arrays from the batch entry's block of key rows; at ci > 0 it leaves them alone, and they still hold what the
  point before left — which came from the same block, since the key block depends on b only. So after EVERY point the
  carried arrays are the body's fill of that point's own key block, and the output block is the body's result on the
  point's query block and that fill.
-/
import proofs.«145386_j35579509080688_2_alg».proof.Proof.Gen.KernelIdeal.Frame
import proofs.«145386_j35579509080688_2_alg».proof.Proof.CarriedPieces

set_option maxRecDepth 16384

noncomputable section

namespace Cert.KernelIdeal.Carried

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The key window's block index depends on the batch entry only: at a point that is not the first of its batch entry
    it is the block index of the point before (decided over the 64 points). -/
theorem index_prev : ∀ t : Fin cfg0.N, ∀ h : ¬ t.val % 4 = 0,
    win0_1.index t = win0_1.index ⟨t.val - 1, Nat.lt_of_le_of_lt (Nat.sub_le _ _) t.isLt⟩ :=
  (by decide +kernel : ∀ t : Fin grid0.N, ∀ h : ¬ t.val % 4 = 0,
    win0_1.index t = win0_1.index ⟨t.val - 1, Nat.lt_of_le_of_lt (Nat.sub_le _ _) t.isLt⟩)

/-- So the key block does not move inside a batch entry: entry j of the block at t is the array's entry at
    (block index) · (block size) + j on each axis, and the block index is that of the point before. -/
theorem iblk_prev (c : Dev nD) (t : Fin cfg0.N) (h : ¬ t.val % 4 = 0) :
    (iblk m c 1 t : Vec F S1x512x4096 .f32)
      = (iblk m c 1 ⟨t.val - 1, Nat.lt_of_le_of_lt (Nat.sub_le _ _) t.isLt⟩ : Vec F S1x512x4096 .f32) := by
  funext j
  unfold iblk
  rw [View.read_apply, View.read_apply]
  show V m c main_v1 (((cfg0.win 1).blk t).view.emb j)
    = V m c main_v1 (((cfg0.win 1).blk ⟨t.val - 1, Nat.lt_of_le_of_lt (Nat.sub_le _ _) t.isLt⟩).view.emb j)
  refine congrArg (V m c main_v1) (funext fun a => Fin.ext ?_)
  show win0_1.index t a * S1x512x4096.size a + 1 * (j a).val
    = win0_1.index ⟨t.val - 1, Nat.lt_of_le_of_lt (Nat.sub_le _ _) t.isLt⟩ a * S1x512x4096.size a + 1 * (j a).val
  rw [index_prev t h]

/-- After any grid point: the output block and the two carried arrays, as the body's arithmetic on the point's own blocks. -/
theorem outsAt_eq (c : Dev nD) (t : Fin cfg0.N) :
    outsAt0 m c t.val t.isLt
      = (k0_pay1 (k0_pay5 (iblk m c 0 t) (k0_pay3 (iblk m c 1 t)) (k0_pay4 (iblk m c 1 t)))
            (k0_pay6 (iblk m c 0 t) (k0_pay3 (iblk m c 1 t)) (k0_pay4 (iblk m c 1 t))),
         k0_pay3 (iblk m c 1 t), k0_pay4 (iblk m c 1 t)) := by
  -- by strong induction on the point's position
  have key : ∀ (n : ℕ) (t : Fin cfg0.N), t.val = n → outsAt0 m c t.val t.isLt
      = (k0_pay1 (k0_pay5 (iblk m c 0 t) (k0_pay3 (iblk m c 1 t)) (k0_pay4 (iblk m c 1 t)))
            (k0_pay6 (iblk m c 0 t) (k0_pay3 (iblk m c 1 t)) (k0_pay4 (iblk m c 1 t))),
         k0_pay3 (iblk m c 1 t), k0_pay4 (iblk m c 1 t)) := by
    intro n
    induction n using Nat.strong_induction_on with
    | _ n ih =>
      intro t ht
      by_cases h0 : t.val % 4 = 0
      · -- the first point of a batch entry: the body fills the carried arrays from the point's own key block
        rw [outsAt0_A m c t h0,
          out_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t),
          sout_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t),
          sout_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)]
      · -- a later point: the carried arrays are what the point before left, the fill of ITS key block, which is this one's
        have hp := ih (t.val - 1) (by omega) ⟨t.val - 1, Nat.lt_of_le_of_lt (Nat.sub_le _ _) t.isLt⟩ rfl
        have hb := iblk_prev m c t h0
        have e1 : (outsAt0 m c (t.val - 1) (Nat.lt_of_le_of_lt (Nat.sub_le _ _) t.isLt)).2.1 = k0_pay3 (iblk m c 1 t) :=
          (congrArg (fun p => p.2.1) hp).trans (congrArg k0_pay3 hb.symm)
        have e2 : (outsAt0 m c (t.val - 1) (Nat.lt_of_le_of_lt (Nat.sub_le _ _) t.isLt)).2.2 = k0_pay4 (iblk m c 1 t) :=
          (congrArg (fun p => p.2.2) hp).trans (congrArg k0_pay4 hb.symm)
        rw [outsAt0_B m c t h0, e1, e2,
          out_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk m c 0 t) (iblk m c 1 t)
            (k0_pay3 (iblk m c 1 t)) (k0_pay4 (iblk m c 1 t))]
        rfl
  exact key t.val t rfl

end Cert.KernelIdeal.Carried

end
-- ==== Proof.HostPrefix.lean ====
/-
  The two arrays the kernel is launched on are the arguments with their last two axes merged.
-/
import proofs.«145386_j35579509080688_2_alg».proof.Proof.Gen.KernelIdeal.Frame
import proofs.«145386_j35579509080688_2_alg».proof.Proof.Spec
import Idealize.ShloMosaic.Lib.ValueIdx
import Idealize.ShloMosaic.Lib.Pipeline.Value
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Position (b, ch, n) of the merged array and position (b, ch, n / 64, n % 64) of the argument are the same row-major
    position. -/
theorem merged_position (b : Fin 16) (ch : Fin 512) (n : Fin 4096) :
    (S16x512x64x64.rowMajor (ix4 b ch (Cert.Spec.hi n) (Cert.Spec.lo n))).val = (S16x512x4096.rowMajor (ix3 b ch n)).val := by
  rewrite [Shape.rowMajor_val_four, Shape.rowMajor_val_three]
  have hn := n.isLt
  show ((b.val * 512 + ch.val) * 64 + n.val / 64) * 64 + n.val % 64 = (b.val * 512 + ch.val) * 4096 + n.val
  omega

/-- The query array as the region finds it: the second argument, (h, w) merged into one axis of 4096. -/
theorem V_v0_apply (c : Dev nD) (b : Fin 16) (ch : Fin 512) (n : Fin 4096) :
    (V m c main_v0 : S16x512x4096.Idx → EReal) (ix3 b ch n)
      = (m ((c : Thread nD τ).loc main_arg1) : S16x512x64x64.Idx → EReal) (ix4 b ch (Cert.Spec.hi n) (Cert.Spec.lo n)) := by
  have e : (V m c main_v0 : S16x512x4096.Idx → EReal)
      = shapeCast _ (m ((c : Thread nD τ).loc main_arg1) : S16x512x64x64.Idx → EReal) shapeCasts_S16x512x64x64_S16x512x4096 := by
    dsimp only [Gen.V, Gen.hostOps0]
    after_results
    rfl
  rw [e]
  exact shapeCast_apply _ shapeCasts_S16x512x64x64_S16x512x4096 _ _ (merged_position b ch n)

/-- The key/value array as the region finds it: the first argument, (h, w) merged into one axis of 4096. -/
theorem V_v1_apply (c : Dev nD) (b : Fin 16) (ch : Fin 512) (n : Fin 4096) :
    (V m c main_v1 : S16x512x4096.Idx → EReal) (ix3 b ch n)
      = (m ((c : Thread nD τ).loc main_arg0) : S16x512x64x64.Idx → EReal) (ix4 b ch (Cert.Spec.hi n) (Cert.Spec.lo n)) := by
  have e : (V m c main_v1 : S16x512x4096.Idx → EReal)
      = shapeCast _ (m ((c : Thread nD τ).loc main_arg0) : S16x512x64x64.Idx → EReal) shapeCasts_S16x512x64x64_S16x512x4096 := by
    dsimp only [Gen.V, Gen.hostOps0]
    after_results
    rfl
  rw [e]
  exact shapeCast_apply _ shapeCasts_S16x512x64x64_S16x512x4096 _ _ (merged_position b ch n)

end Cert.KernelIdeal.HostPrefix

end
-- ==== Proof.KernelValue.lean ====
/-
  The kernel's result array, whole.

  Grid point t = 4·b + ci writes back the block of 128 channels [128·ci, 128·ci + 128) of batch entry b. What it writes
  is the body's arithmetic on the point's query block and on the carried arrays, which after every point are the fill
  from the point's own key block. Entry by entry that is the output row of the specification (in the kernel's spelling)
  of query row (b, 128·ci + r) against the 512 key rows of batch entry b. The 64 blocks tile the array, so after the run
  the array is the specification of the two launched arrays.
-/
import proofs.«145386_j35579509080688_2_alg».proof.Proof.Gen.KernelIdeal.Value
import proofs.«145386_j35579509080688_2_alg».proof.Proof.Payload
import proofs.«145386_j35579509080688_2_alg».proof.Proof.Carried
import proofs.«145386_j35579509080688_2_alg».proof.Proof.HostPrefix
import proofs.«145386_j35579509080688_2_alg».proof.Proof.Spec

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps, decided once over the 64 grid points: the query block moves with the output block, the key
    block with the output's batch entry alone, and the trailing block indices are zero. -/
theorem idx_facts : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 3) = win0_2.index t (0 : Fin 4)
    ∧ win0_1.index t (1 : Fin 3) = 0
    ∧ win0_1.index t (2 : Fin 3) = 0
    ∧ win0_2.index t (2 : Fin 4) = 0
    ∧ win0_2.index t (3 : Fin 4) = 0
    ∧ win0_2.index t (0 : Fin 4) ≤ 15
    ∧ win0_2.index t (1 : Fin 4) ≤ 3 :=
  (by decide +kernel : ∀ t : Fin grid0.N, _)

/-- Every block of the output array is some point's. -/
theorem idx_onto : ∀ (q0 : Fin 16) (q1 : Fin 4), ∃ t : Fin cfg0.N, win0_2.index t = ![q0.val, q1.val, 0, 0] :=
  (by decide +kernel : ∀ (q0 : Fin 16) (q1 : Fin 4), ∃ t : Fin grid0.N, win0_2.index t = ![q0.val, q1.val, 0, 0])

/-- The batch entry of grid point t. -/
def bOf (t : Fin cfg0.N) : Fin 16 := ⟨win0_2.index t (0 : Fin 4), by have := (idx_facts t).2.2.2.2.2.2.2.2.1; omega⟩

/-- The channel that row r of grid point t's block is. -/
def cOf (t : Fin cfg0.N) (r : Fin 128) : Fin 512 :=
  ⟨win0_2.index t (1 : Fin 4) * 128 + r.val, by have := (idx_facts t).2.2.2.2.2.2.2.2.2; have := r.isLt; omega⟩

/-- Where entry (0, r, n) of the point's query block sits in the query array. -/
theorem emb0 (t : Fin cfg0.N) (r : Fin 128) (n : Fin 4096) :
    ((cfg0.win 0).blk t).view.emb (ix3 (0 : Fin 1) r n) = ix3 (bOf t) (cOf t r) n := by
  obtain ⟨e0, e1, e2, -⟩ := idx_facts t
  funext a; apply Fin.ext
  match a with
  | ⟨0, _⟩ => show win0_0.index t (0 : Fin 3) * 1 + 1 * 0 = win0_2.index t (0 : Fin 4); omega
  | ⟨1, _⟩ => show win0_0.index t (1 : Fin 3) * 128 + 1 * r.val = win0_2.index t (1 : Fin 4) * 128 + r.val; omega
  | ⟨2, _⟩ => show win0_0.index t (2 : Fin 3) * 4096 + 1 * n.val = n.val; omega

/-- Where entry (0, d, n) of the point's key block sits in the key array. -/
theorem emb1 (t : Fin cfg0.N) (d : Fin 512) (n : Fin 4096) :
    ((cfg0.win 1).blk t).view.emb (ix3 (0 : Fin 1) d n) = ix3 (bOf t) d n := by
  obtain ⟨-, -, -, e3, e4, e5, -⟩ := idx_facts t
  funext a; apply Fin.ext
  match a with
  | ⟨0, _⟩ => show win0_1.index t (0 : Fin 3) * 1 + 1 * 0 = win0_2.index t (0 : Fin 4); omega
  | ⟨1, _⟩ => show win0_1.index t (1 : Fin 3) * 512 + 1 * d.val = d.val; omega
  | ⟨2, _⟩ => show win0_1.index t (2 : Fin 3) * 4096 + 1 * n.val = n.val; omega

/-- Where entry (0, r, h, w) of the point's output block sits in the output array. -/
theorem emb2 (t : Fin cfg0.N) (r : Fin 128) (h w : Fin 64) :
    ((cfg0.win 2).blk t).view.emb (ix4 (0 : Fin 1) r h w) = ix4 (bOf t) (cOf t r) h w := by
  obtain ⟨-, -, -, -, -, -, e6, e7, -⟩ := idx_facts t
  funext a; apply Fin.ext
  match a with
  | ⟨0, _⟩ => show win0_2.index t (0 : Fin 4) * 1 + 1 * 0 = win0_2.index t (0 : Fin 4); omega
  | ⟨1, _⟩ => show win0_2.index t (1 : Fin 4) * 128 + 1 * r.val = win0_2.index t (1 : Fin 4) * 128 + r.val; omega
  | ⟨2, _⟩ => show win0_2.index t (2 : Fin 4) * 64 + 1 * h.val = h.val; omega
  | ⟨3, _⟩ => show win0_2.index t (3 : Fin 4) * 64 + 1 * w.val = w.val; omega

/-- What grid point t writes back is block t of the specification (in the kernel's spelling) of the two launched arrays. -/
theorem flushed_eq (c : Dev nD) (t : Fin cfg0.N) :
    (dats m 0 c).flushed 2 t
      = ((cfg0.win 2).blk t).view.read (Elt Ideal) (Cert.Spec.G3 (V m c main_v0) (V m c main_v1)) := by
  rw [Cert.KernelIdeal.Value.flushed2, Cert.KernelIdeal.Carried.outsAt_eq]
  funext j
  obtain ⟨z, r, h, w, rfl⟩ : ∃ (z : Fin 1) (r : Fin 128) (h w : Fin 64), j = ix4 z r h w := ⟨j 0, j 1, j 2, j 3, eq_ix4 j⟩
  obtain rfl : z = 0 := Subsingleton.elim _ _
  show k0_pay1 (F := Ideal) (k0_pay5 (iblk m c 0 t) (k0_pay3 (iblk m c 1 t)) (k0_pay4 (iblk m c 1 t)))
      (k0_pay6 (iblk m c 0 t) (k0_pay3 (iblk m c 1 t)) (k0_pay4 (iblk m c 1 t))) (ix4 (0 : Fin 1) r h w)
    = Cert.Spec.G3 (V m c main_v0) (V m c main_v1) (((cfg0.win 2).blk t).view.emb (ix4 (0 : Fin 1) r h w))
  refine (Cert.KernelIdeal.Payload.pay_out_apply (iblk m c 0 t) (k0_pay3 (iblk m c 1 t)) (k0_pay4 (iblk m c 1 t)) r h w).trans ?_
  rw [emb2]
  have hq : (fun n : Fin 4096 => iblk m c 0 t (ix3 (0 : Fin 1) r n))
      = Cert.Spec.row3 (V m c main_v0) (bOf t) (cOf t r) := funext fun n => by
    show V m c main_v0 (((cfg0.win 0).blk t).view.emb (ix3 (0 : Fin 1) r n)) = V m c main_v0 (ix3 (bOf t) (cOf t r) n)
    rw [emb0]
  have hk : ∀ (d : Fin 512) (n : Fin 4096), iblk m c 1 t (ix3 (0 : Fin 1) d n) = Cert.Spec.row3 (V m c main_v1) (bOf t) d n :=
    fun d n => by
      show V m c main_v1 (((cfg0.win 1).blk t).view.emb (ix3 (0 : Fin 1) d n)) = V m c main_v1 (ix3 (bOf t) d n)
      rw [emb1]
  have h3 : (fun (d : Fin 512) (n : Fin 4096) => k0_pay3 (F := Ideal) (iblk m c 1 t) (ix2 d n))
      = fun d => Cert.Spec.row3 (V m c main_v1) (bOf t) d := funext fun d => funext fun n =>
    (Cert.KernelIdeal.Payload.pay3_apply (iblk m c 1 t) d n).trans (hk d n)
  have h4 : (fun (d : Fin 512) (n : Fin 4096) => k0_pay4 (F := Ideal) (iblk m c 1 t) (ix2 d n))
      = fun d n => Cert.Spec.row3 (V m c main_v1) (bOf t) d n - Cert.Spec.row3 (V m c main_v1) (bOf t) d n :=
    funext fun d => funext fun n => by
      refine (Cert.KernelIdeal.Payload.pay4_apply (iblk m c 1 t) d n).trans ?_
      rw [hk d n]
  rw [hq, h3, h4]
  rfl

/-- An index of the output array is in point t's block iff each coordinate is in the block's range on its axis. -/
theorem mem_blk (t : Fin cfg0.N) (i : S16x512x64x64.Idx) :
    i ∈ ((cfg0.win 2).blk t).view.set ↔ ∀ a : Fin 4, win0_2.index t a * S1x128x64x64.size a ≤ (i a).val
      ∧ (i a).val < win0_2.index t a * S1x128x64x64.size a + S1x128x64x64.size a := by
  show i ∈ ((View.whole main_v2).slice (win0_2.rect t)).set ↔ _
  rw [View.set_slice_whole, Rect.mem_set_unit]
  exact Iff.rfl

/-- The 64 blocks cover the output array: entry (b, ch, h, w) is in the block of the point with block index (b, ch / 128). -/
theorem cover (i : S16x512x64x64.Idx) :
    ∃ t : Fin cfg0.N, (cfg0.win 2).flush t = true ∧ i ∈ ((cfg0.win 2).blk t).view.set := by
  have hi0 : (i 0).val < 16 := (i 0).isLt
  have hi1 : (i 1).val < 512 := (i 1).isLt
  have hi2 : (i 2).val < 64 := (i 2).isLt
  have hi3 : (i 3).val < 64 := (i 3).isLt
  obtain ⟨t, ht⟩ := idx_onto ⟨(i 0).val, hi0⟩ ⟨(i 1).val / 128, by omega⟩
  have q0 : win0_2.index t (0 : Fin 4) = (i 0).val := congrFun ht 0
  have q1 : win0_2.index t (1 : Fin 4) = (i 1).val / 128 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- The output array after the run: the specification, in the kernel's spelling, of the two launched arrays. -/
theorem final (c : Dev nD) :
    (dats m 0 c).arrAt 2 cfg0.N = Cert.Spec.G3 (V m c main_v0) (V m c main_v1) :=
  (dats m 0 c).arrAt_eq_of_cover 2 (Cert.Spec.G3 (V m c main_v0) (V m c main_v1)) (fun t _ => flushed_eq m c t) cover

/-- Every entry of a [16, 512, 64, 64] array is a real number. -/
def AllReal (x : (⟨4, ![16, 512, 64, 64]⟩ : Shape).Idx → EReal) : Prop := ∀ i, x i ≠ ⊤ ∧ x i ≠ ⊥

/-- With finite arguments that is the plain specification of the two arguments. -/
theorem final_G (c : Dev nD)
    (f0 : AllReal (m ((c : Thread nD τ).loc main_arg0))) (f1 : AllReal (m ((c : Thread nD τ).loc main_arg1))) :
    (dats m 0 c).arrAt 2 cfg0.N
      = Cert.Spec.G (m ((c : Thread nD τ).loc main_arg0)) (m ((c : Thread nD τ).loc main_arg1)) :=
  (final m c).trans (Cert.Spec.G3_eq_G _ _ _ _
    (fun b ch n => Cert.KernelIdeal.HostPrefix.V_v0_apply m c b ch n)
    (fun b ch n => Cert.KernelIdeal.HostPrefix.V_v1_apply m c b ch n) f1 f0)

/-- The run with the output array named: the specification of the arguments, which end unchanged. -/
theorem run
    (fin : ∀ c : Dev nD, AllReal (m ((c : Thread nD τ).loc main_arg0)) ∧ AllReal (m ((c : Thread nD τ).loc main_arg1))) :
    θ_run defs (onTc (τ := τ) (main (F := Ideal))) ⟨m, fun _ => 0, ρ⟩ fun r => ∀ c : Dev nD,
      r.2.mem ((c : Thread nD τ).loc main_v2)
          = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_G m c (fin c).1 (fin c).2), (h c).2⟩)
    (Cert.KernelIdeal.Value.run_blocks m ρ)

end Cert.KernelIdeal.Whole

end
-- ==== Proof.RefValueA.lean ====
/-
  The first half of the reference program, entry by entry: the two arguments with their last two axes merged, the
  energies of each query row against the key rows, their flip about the row's maximum, and the softmax of the flipped
  energies — the attention weights of the specification.
-/
import proofs.«145386_j35579509080688_2_alg».proof.Proof.Gen.ReferenceIdeal.Read
import proofs.«145386_j35579509080688_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

open Cert.Spec (ninf rmax softmax energy flipped attn mixed hw hi lo outRow rowOf)

/-! ## The two maximum reductions, read at coordinates -/

/-- The maximum over the last axis of a three-axis array, at (b, c): the fold of max over that row from the initial value. -/
theorem reduceMax3 {n0 n1 n2 : ℕ} (x : (⟨3, ![n0, n1, n2]⟩ : Shape).Idx → Ideal .f32)
    (init : (⟨0, ![]⟩ : Shape).Idx → Ideal .f32)
    (h' : (⟨3, ![n0, n1, n2]⟩ : Shape).ReducesTo [2] (⟨2, ![n0, n1]⟩ : Shape)) (hu : 0 < (⟨0, ![]⟩ : Shape).numel)
    (b : Fin n0) (c : Fin n1) :
    Host.reduce FloatOps.maximumf x init h' hu (ix2 b c)
      = (Finset.univ : Finset (Fin n2)).fold max (init (Shape.Idx.first hu)) (fun d : Fin n2 => x (ix3 b c d)) := by
  have h : (⟨3, ![n0, n1, n2]⟩ : Shape).Reduces [2] (⟨2, ![n0, n1]⟩ : Shape) := ⟨h'.1, Nat.succ_pos _, h'.2⟩
  rw [Host.reduce_eq_fold_single FloatOps.maximumf x init h' h hu]
  have hf : (x ∘ h.lift (ix2 b c)) = fun d : Fin n2 => x (ix3 b c d) :=
    funext fun k => congrArg x (funext fun a => Fin.ext (by
      match a with
      | ⟨0, _⟩ => rfl
      | ⟨1, _⟩ => rfl
      | ⟨2, _⟩ => rfl))
  exact congrArg (fun f => Finset.fold max (init (Shape.Idx.first hu)) f (Finset.univ : Finset (Fin n2))) hf

/-- The same over the last axis of a four-axis array, at (b, c, r). -/
theorem reduceMax4 {n0 n1 n2 n3 : ℕ} (x : (⟨4, ![n0, n1, n2, n3]⟩ : Shape).Idx → Ideal .f32)
    (init : (⟨0, ![]⟩ : Shape).Idx → Ideal .f32)
    (h' : (⟨4, ![n0, n1, n2, n3]⟩ : Shape).ReducesTo [3] (⟨3, ![n0, n1, n2]⟩ : Shape)) (hu : 0 < (⟨0, ![]⟩ : Shape).numel)
    (b : Fin n0) (c : Fin n1) (r : Fin n2) :
    Host.reduce FloatOps.maximumf x init h' hu (ix3 b c r)
      = (Finset.univ : Finset (Fin n3)).fold max (init (Shape.Idx.first hu)) (fun d : Fin n3 => x (ix4 b c r d)) := by
  have h : (⟨4, ![n0, n1, n2, n3]⟩ : Shape).Reduces [3] (⟨3, ![n0, n1, n2]⟩ : Shape) := ⟨h'.1, Nat.succ_pos _, h'.2⟩
  rw [Host.reduce_eq_fold_single FloatOps.maximumf x init h' h hu]
  have hf : (x ∘ h.lift (ix3 b c r)) = fun d : Fin n3 => x (ix4 b c r d) :=
    funext fun k => congrArg x (funext fun a => Fin.ext (by
      match a with
      | ⟨0, _⟩ => rfl
      | ⟨1, _⟩ => rfl
      | ⟨2, _⟩ => rfl
      | ⟨3, _⟩ => rfl))
  exact congrArg (fun f => Finset.fold max (init (Shape.Idx.first hu)) f (Finset.univ : Finset (Fin n3))) hf

/-! ## The merged arrays: row (b, c) of the [16, 512, 4096] view is row (b, c) of the argument -/

/-- Position (b, c, n) of the merged view is position (b, c, n / 64, n % 64) of the argument. -/
theorem idx_v0 (b : Fin 16) (c : Fin 512) (n : Fin 4096) : idx_main_v0 (ix3 b c n) = ix4 b c (hi n) (lo n) := by
  have hb := b.isLt; have hc := c.isLt; have hn := n.isLt
  funext a; apply Fin.ext
  match a with
  | ⟨0, _⟩ => show ((b.val * 512 + c.val) * 4096 + n.val) / 2097152 = b.val; omega
  | ⟨1, _⟩ => show ((b.val * 512 + c.val) * 4096 + n.val) / 4096 % 512 = c.val; omega
  | ⟨2, _⟩ => show ((b.val * 512 + c.val) * 4096 + n.val) / 64 % 64 = n.val / 64; omega
  | ⟨3, _⟩ => show ((b.val * 512 + c.val) * 4096 + n.val) % 64 = n.val % 64; omega

variable (x0 x1 : (⟨S16x512x64x64, .f32⟩ : BufTy).Contents (Elt Ideal))

/-- The merged query array at (b, c, n). -/
theorem v0_at (b : Fin 16) (c : Fin 512) (n : Fin 4096) :
    val_main_v0 (F := Ideal) x1 (ix3 b c n) = rowOf x1 b c n :=
  (val_main_v0_apply x1 _).trans (congrArg x1 (idx_v0 b c n))

/-- The merged key/value array at (b, d, n). -/
theorem v1_at (b : Fin 16) (d : Fin 512) (n : Fin 4096) :
    val_main_v1 (F := Ideal) x0 (ix3 b d n) = rowOf x0 b d n :=
  (val_main_v1_apply x0 _).trans (congrArg x0 (idx_v0 b d n))

/-! ## The energies and the attention weights of query row (b, c) -/

/-- The energy at (b, c, d) is the inner product of query row (b, c) with key row (b, d). -/
theorem v2_at (b : Fin 16) (c d : Fin 512) :
    val_main_v2 (F := Ideal) x0 x1 (ix3 b c d) = energy (rowOf x1 b c) (fun d => rowOf x0 b d) d :=
  (val_main_v2_apply x0 x1 _).trans (Finset.sum_congr rfl fun k _ =>
    congrArg₂ (· * ·)
      ((congrArg (val_main_v0 (F := Ideal) x1) (funext fun a => by
          match a with
          | ⟨0, _⟩ => rfl
          | ⟨1, _⟩ => rfl
          | ⟨2, _⟩ => rfl)).trans (v0_at x1 b c k))
      ((congrArg (val_main_v1 (F := Ideal) x0) (funext fun a => by
          match a with
          | ⟨0, _⟩ => rfl
          | ⟨1, _⟩ => rfl
          | ⟨2, _⟩ => rfl)).trans (v1_at x0 b d k)))

/-- The maximum of the energies of query row (b, c). -/
theorem v3_at (b : Fin 16) (c : Fin 512) :
    val_main_v3 (F := Ideal) x0 x1 (ix2 b c) = rmax (energy (rowOf x1 b c) (fun d => rowOf x0 b d)) :=
  (reduceMax3 (val_main_v2 (F := Ideal) x0 x1) (val_main_cst (F := Ideal)) reducesTo_S16x512x512_S16x512_d2 h_S_ b c).trans
    (congrArg rmax (funext fun d => v2_at x0 x1 b c d))

/-- That maximum, broadcast along the row. -/
theorem v5_at (b : Fin 16) (c d : Fin 512) :
    val_main_v5 (F := Ideal) x0 x1 (ix3 b c d) = rmax (energy (rowOf x1 b c) (fun d => rowOf x0 b d)) := by
  rw [val_main_v5_apply, val_main_v4_apply]
  exact (congrArg (val_main_v3 (F := Ideal) x0 x1) (funext fun a => by
    match a with
    | ⟨0, _⟩ => rfl
    | ⟨1, _⟩ => rfl)).trans (v3_at x0 x1 b c)

/-- The flipped energies: the row's maximum minus each entry. -/
theorem v6_at (b : Fin 16) (c d : Fin 512) :
    val_main_v6 (F := Ideal) x0 x1 (ix3 b c d) = flipped (energy (rowOf x1 b c) (fun d => rowOf x0 b d)) d := by
  rw [val_main_v6_apply, Ideal.subf_def, v5_at, v2_at]
  rfl

/-- The maximum of the flipped energies of query row (b, c). -/
theorem v7_at (b : Fin 16) (c : Fin 512) :
    val_main_v7 (F := Ideal) x0 x1 (ix2 b c) = rmax (flipped (energy (rowOf x1 b c) (fun d => rowOf x0 b d))) :=
  (reduceMax3 (val_main_v6 (F := Ideal) x0 x1) (val_main_cst_0 (F := Ideal)) reducesTo_S16x512x512_S16x512_d2 h_S_ b c).trans
    (congrArg rmax (funext fun d => v6_at x0 x1 b c d))

/-- The shift of the first softmax: max(−∞, the maximum of the flipped energies). -/
theorem v9_at (b : Fin 16) (c : Fin 512) :
    val_main_v9 (F := Ideal) x0 x1 (ix2 b c)
      = max ninf (rmax (flipped (energy (rowOf x1 b c) (fun d => rowOf x0 b d)))) := by
  rw [val_main_v9_apply, Ideal.maximumf_def, val_main_v8_apply, val_main_cst_1_apply, Ideal.ofBits_def, v7_at]

/-- The shift, broadcast along the row. -/
theorem v11_at (b : Fin 16) (c d : Fin 512) :
    val_main_v11 (F := Ideal) x0 x1 (ix3 b c d)
      = max ninf (rmax (flipped (energy (rowOf x1 b c) (fun d => rowOf x0 b d)))) := by
  rw [val_main_v11_apply, val_main_v10_apply]
  exact (congrArg (val_main_v9 (F := Ideal) x0 x1) (funext fun a => by
    match a with
    | ⟨0, _⟩ => rfl
    | ⟨1, _⟩ => rfl)).trans (v9_at x0 x1 b c)

/-- The exponentials of the shifted flipped energies. -/
theorem v13_at (b : Fin 16) (c d : Fin 512) :
    val_main_v13 (F := Ideal) x0 x1 (ix3 b c d)
      = Ideal.exp (flipped (energy (rowOf x1 b c) (fun d => rowOf x0 b d)) d
          - max ninf (rmax (flipped (energy (rowOf x1 b c) (fun d => rowOf x0 b d))))) := by
  rw [val_main_v13_apply, Ideal.hostUnary_exp_def, val_main_v12_apply, Ideal.subf_def, v6_at, v11_at]

/-- Their sum over the row. -/
theorem v14_at (b : Fin 16) (c : Fin 512) :
    val_main_v14 (F := Ideal) x0 x1 (ix2 b c)
      = ∑ j : Fin 512, Ideal.exp (flipped (energy (rowOf x1 b c) (fun d => rowOf x0 b d)) j
          - max ninf (rmax (flipped (energy (rowOf x1 b c) (fun d => rowOf x0 b d))))) := by
  have h0 : (val_main_cst_2 (F := Ideal)) (Shape.Idx.first h_S_) = 0 := by
    rw [val_main_cst_2_apply, Ideal.ofBits_def, Ideal.ofBits_zero_f32]
  refine (val_main_v14_apply x0 x1 _).trans ?_
  refine (congrArg (· + _) h0).trans ((zero_add _).trans ?_)
  exact Finset.sum_congr rfl fun k _ =>
    (congrArg (val_main_v13 (F := Ideal) x0 x1) (funext fun a => by
      match a with
      | ⟨0, _⟩ => rfl
      | ⟨1, _⟩ => rfl
      | ⟨2, _⟩ => rfl)).trans (v13_at x0 x1 b c k)

/-- The sum, broadcast along the row. -/
theorem v16_at (b : Fin 16) (c d : Fin 512) :
    val_main_v16 (F := Ideal) x0 x1 (ix3 b c d)
      = ∑ j : Fin 512, Ideal.exp (flipped (energy (rowOf x1 b c) (fun d => rowOf x0 b d)) j
          - max ninf (rmax (flipped (energy (rowOf x1 b c) (fun d => rowOf x0 b d))))) := by
  rw [val_main_v16_apply, val_main_v15_apply]
  exact (congrArg (val_main_v14 (F := Ideal) x0 x1) (funext fun a => by
    match a with
    | ⟨0, _⟩ => rfl
    | ⟨1, _⟩ => rfl)).trans (v14_at x0 x1 b c)

/-- The attention weights of query row (b, c). -/
theorem ref_attn (b : Fin 16) (c d : Fin 512) :
    val_main_v17 (F := Ideal) x0 x1 (ix3 b c d) = attn (rowOf x1 b c) (fun d => rowOf x0 b d) d := by
  rw [val_main_v17_apply, Ideal.hostDivf_def, v13_at, v16_at]
  rfl

end Cert.ReferenceIdeal.RefValue

end
-- ==== Proof.RefTailIdx.lean ====
/-
  The second half of the reference program: where each of its layout operations reads its operand, at explicit
  coordinates, and a softmax assembled from its parts.
-/
import proofs.«145386_j35579509080688_2_alg».proof.Proof.Gen.ReferenceIdeal.Read
import proofs.«145386_j35579509080688_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue.Tail

open Cert.ReferenceIdeal Cert.ReferenceIdeal.Gen Cert.ReferenceIdeal.Read Idealize.ShloMosaic Idealize.ShloMosaic.ValueIdx

/-! ## Indices: each layout operation's operand index at explicit coordinates -/

/-- Position (b, c, h, w) of a [16, 512, 64, 64] array read as [16, 512, 4096] is (b, c, 64·h + w). -/
theorem idx19 (b : Fin 16) (c : Fin 512) (h w : Fin 64) :
    idx_main_v19 (ix4 b c h w) = ix3 b c (Cert.Spec.hw h w) := by
  have hb := b.isLt; have hc := c.isLt; have hh := h.isLt; have hw := w.isLt
  funext a
  match a with
  | ⟨0, _⟩ => exact Fin.ext (by show (((b.val * 512 + c.val) * 64 + h.val) * 64 + w.val) / 2097152 = b.val; omega)
  | ⟨1, _⟩ => exact Fin.ext (by show (((b.val * 512 + c.val) * 64 + h.val) * 64 + w.val) / 4096 % 512 = c.val; omega)
  | ⟨2, _⟩ => exact Fin.ext (by show (((b.val * 512 + c.val) * 64 + h.val) * 64 + w.val) % 4096 = h.val * 64 + w.val; omega)

/-- Position (b, d, n) of a [16, 512, 4096] array read as [16, 512, 64, 64] is (b, d, n / 64, n % 64). -/
theorem idx1 (b : Fin 16) (d : Fin 512) (n : Fin 4096) :
    idx_main_v1 (ix3 b d n) = ix4 b d (Cert.Spec.hi n) (Cert.Spec.lo n) := by
  have hb := b.isLt; have hd := d.isLt; have hn := n.isLt
  funext a
  match a with
  | ⟨0, _⟩ => exact Fin.ext (by show ((b.val * 512 + d.val) * 4096 + n.val) / 2097152 = b.val; omega)
  | ⟨1, _⟩ => exact Fin.ext (by show ((b.val * 512 + d.val) * 4096 + n.val) / 4096 % 512 = d.val; omega)
  | ⟨2, _⟩ => exact Fin.ext (by show ((b.val * 512 + d.val) * 4096 + n.val) / 64 % 64 = n.val / 64; omega)
  | ⟨3, _⟩ => exact Fin.ext (by show ((b.val * 512 + d.val) * 4096 + n.val) % 64 = n.val % 64; omega)

theorem lidx18 (b : Fin 16) (c : Fin 512) (n : Fin 4096) (k : Fin 512) : lidx_main_v18 (ix3 b c n) k = ix3 b c k := by
  funext a; match a with | ⟨0, _⟩ => rfl | ⟨1, _⟩ => rfl | ⟨2, _⟩ => rfl

theorem ridx18 (b : Fin 16) (c : Fin 512) (n : Fin 4096) (k : Fin 512) : ridx_main_v18 (ix3 b c n) k = ix3 b k n := by
  funext a; match a with | ⟨0, _⟩ => rfl | ⟨1, _⟩ => rfl | ⟨2, _⟩ => rfl

theorem idx24 (b : Fin 16) (c : Fin 512) (h w : Fin 64) : idx_main_v24 (ix4 b c h w) = ix4 b c h (0 : Fin 1) := by
  funext a; match a with | ⟨0, _⟩ => rfl | ⟨1, _⟩ => rfl | ⟨2, _⟩ => rfl | ⟨3, _⟩ => rfl

theorem idx23 (b : Fin 16) (c : Fin 512) (h : Fin 64) : idx_main_v23 (ix4 b c h (0 : Fin 1)) = ix3 b c h := by
  funext a; match a with | ⟨0, _⟩ => rfl | ⟨1, _⟩ => rfl | ⟨2, _⟩ => rfl

theorem idx29 (b : Fin 16) (c : Fin 512) (h w : Fin 64) : idx_main_v29 (ix4 b c h w) = ix4 b c h (0 : Fin 1) := by
  funext a; match a with | ⟨0, _⟩ => rfl | ⟨1, _⟩ => rfl | ⟨2, _⟩ => rfl | ⟨3, _⟩ => rfl

theorem idx28 (b : Fin 16) (c : Fin 512) (h : Fin 64) : idx_main_v28 (ix4 b c h (0 : Fin 1)) = ix3 b c h := by
  funext a; match a with | ⟨0, _⟩ => rfl | ⟨1, _⟩ => rfl | ⟨2, _⟩ => rfl

theorem idx27 (b : Fin 16) (c : Fin 512) (h k : Fin 64) : idx_main_v27 (ix3 b c h) k = ix4 b c h k := by
  funext a; match a with | ⟨0, _⟩ => rfl | ⟨1, _⟩ => rfl | ⟨2, _⟩ => rfl | ⟨3, _⟩ => rfl

/-! ## A softmax assembled from its parts -/

/-- Exponentials of a family shifted by max(−∞, its maximum), over their sum, are its softmax. -/
theorem softmax_of {n : ℕ} (f e : Fin n → EReal) (mx s : EReal)
    (hmx : mx = max Cert.Spec.ninf (Cert.Spec.rmax f)) (he : ∀ k, e k = Ideal.exp (f k - mx)) (hs : s = ∑ k, e k) (k : Fin n) :
    Ideal.div (e k) s = Cert.Spec.softmax f k := by
  have ee : e = fun k => Ideal.exp (f k - mx) := funext he
  subst hs; subst ee; subst hmx
  rfl

/-- Softmax of pointwise-equal families. -/
theorem softmax_congr {n : ℕ} {f g : Fin n → EReal} (h : ∀ k, f k = g k) (k : Fin n) :
    Cert.Spec.softmax f k = Cert.Spec.softmax g k := by
  rw [show f = g from funext h]

end Cert.ReferenceIdeal.RefValue.Tail

end
-- ==== Proof.RefTail.lean ====
/-
  The second half of the reference program: from the attention weights to the result.
-/
import proofs.«145386_j35579509080688_2_alg».proof.Proof.Gen.ReferenceIdeal.Read
import proofs.«145386_j35579509080688_2_alg».proof.Proof.Spec
import Idealize.ShloMosaic.Lib.ValueIdx
import Idealize.ShloMosaic.Lib.Pipeline.Value
import Idealize.ShloMosaic.PureOps.Ideal.Laws
import proofs.«145386_j35579509080688_2_alg».proof.Proof.RefTailIdx
import proofs.«145386_j35579509080688_2_alg».proof.Proof.RefValueA

noncomputable section

namespace Cert.ReferenceIdeal.RefValue

open Cert.ReferenceIdeal Cert.ReferenceIdeal.Gen Cert.ReferenceIdeal.Read Idealize.ShloMosaic Idealize.ShloMosaic.ValueIdx

namespace Tail

/-! ## The stages of the second half at explicit coordinates

The mixture ∑_d attn d · kv d n, its reading as 64 rows of 64, each row's maximum from −∞, the shift max(−∞, maximum),
the exponentials of the shifted entries, their sum over the row, and the quotient. -/

section
variable (x0 x1 : (⟨S16x512x64x64, .f32⟩ : BufTy).Contents (Elt Ideal))

/-- The key/value array with its last two axes merged, read at (b, d, n). -/
theorem v1_at (b : Fin 16) (d : Fin 512) (n : Fin 4096) :
    val_main_v1 (F := Ideal) x0 (ix3 b d n) = Cert.Spec.rowOf x0 b d n :=
  (val_main_v1_apply x0 _).trans (congrArg x0 (idx1 b d n))

/-- The mixture of the value rows, before it is read as 64 rows of 64. -/
theorem v18_at
    (h17 : ∀ (b : Fin 16) (c d : Fin 512), val_main_v17 (F := Ideal) x0 x1 (ix3 b c d)
        = Cert.Spec.attn (Cert.Spec.rowOf x1 b c) (fun d => Cert.Spec.rowOf x0 b d) d)
    (b : Fin 16) (c : Fin 512) (n : Fin 4096) :
    val_main_v18 (F := Ideal) x0 x1 (ix3 b c n)
      = Cert.Spec.mixed (Cert.Spec.rowOf x1 b c) (fun d => Cert.Spec.rowOf x0 b d) n := by
  refine (val_main_v18_apply x0 x1 _).trans ?_
  refine (Finset.sum_congr rfl fun k _ => ?_).trans rfl
  exact congrArg₂ (· * ·)
    ((congrArg (val_main_v17 (F := Ideal) x0 x1) (lidx18 b c n k)).trans (h17 b c k))
    ((congrArg (val_main_v1 (F := Ideal) x0) (ridx18 b c n k)).trans (v1_at x0 b k n))

/-- … and read as 64 rows of 64. -/
theorem v19_at
    (h17 : ∀ (b : Fin 16) (c d : Fin 512), val_main_v17 (F := Ideal) x0 x1 (ix3 b c d)
        = Cert.Spec.attn (Cert.Spec.rowOf x1 b c) (fun d => Cert.Spec.rowOf x0 b d) d)
    (b : Fin 16) (c : Fin 512) (h w : Fin 64) :
    val_main_v19 (F := Ideal) x0 x1 (ix4 b c h w)
      = Cert.Spec.mixed (Cert.Spec.rowOf x1 b c) (fun d => Cert.Spec.rowOf x0 b d) (Cert.Spec.hw h w) :=
  (val_main_v19_apply x0 x1 _).trans
    ((congrArg (val_main_v18 (F := Ideal) x0 x1) (idx19 b c h w)).trans (v18_at x0 x1 h17 b c _))

/-- The maximum over the width, from −∞. -/
theorem v20_at (b : Fin 16) (c : Fin 512) (h : Fin 64) :
    val_main_v20 (F := Ideal) x0 x1 (ix3 b c h)
      = Cert.Spec.rmax (fun w : Fin 64 => val_main_v19 (F := Ideal) x0 x1 (ix4 b c h w)) := by
  unfold val_main_v20
  generalize val_main_v19 (F := Ideal) x0 x1 = y
  exact reduceMax4 y (val_main_cst_3 (F := Ideal)) reducesTo_S16x512x64x64_S16x512x64_d3 h_S_ b c h

/-- The shift of row (b, c, h): max(−∞, the row's maximum). -/
theorem v22_at (b : Fin 16) (c : Fin 512) (h : Fin 64) :
    val_main_v22 (F := Ideal) x0 x1 (ix3 b c h)
      = max Cert.Spec.ninf (Cert.Spec.rmax (fun w : Fin 64 => val_main_v19 (F := Ideal) x0 x1 (ix4 b c h w))) := by
  rw [val_main_v22_apply, Ideal.maximumf_def, val_main_v21_apply, val_main_cst_4_apply, Ideal.ofBits_def, v20_at]

theorem v24_at (b : Fin 16) (c : Fin 512) (h w : Fin 64) :
    val_main_v24 (F := Ideal) x0 x1 (ix4 b c h w) = val_main_v22 (F := Ideal) x0 x1 (ix3 b c h) := by
  rw [val_main_v24_apply, idx24, val_main_v23_apply, idx23]

/-- The exponential of the shifted entry. -/
theorem v26_at (b : Fin 16) (c : Fin 512) (h w : Fin 64) :
    val_main_v26 (F := Ideal) x0 x1 (ix4 b c h w)
      = Ideal.exp (val_main_v19 (F := Ideal) x0 x1 (ix4 b c h w) - val_main_v22 (F := Ideal) x0 x1 (ix3 b c h)) := by
  rw [val_main_v26_apply, Ideal.hostUnary_exp_def, val_main_v25_apply, Ideal.subf_def, v24_at]

/-- The sum of the row's exponentials. -/
theorem v29_at (b : Fin 16) (c : Fin 512) (h w : Fin 64) :
    val_main_v29 (F := Ideal) x0 x1 (ix4 b c h w) = ∑ k : Fin 64, val_main_v26 (F := Ideal) x0 x1 (ix4 b c h k) := by
  rw [val_main_v29_apply, idx29, val_main_v28_apply, idx28, val_main_v27_apply, val_main_cst_5_apply, Ideal.ofBits_def,
    Ideal.ofBits_zero_f32, zero_add]
  generalize val_main_v26 (F := Ideal) x0 x1 = y
  exact Finset.sum_congr rfl fun k _ => congrArg y (idx27 b c h k)

/-- Entry (b, c, h, w) of the specification is the softmax over the width of the mixture read as 64 rows of 64. -/
theorem G_at (b : Fin 16) (c : Fin 512) (h w : Fin 64) :
    Cert.Spec.G x0 x1 (ix4 b c h w)
      = Cert.Spec.softmax (fun w' : Fin 64 =>
          Cert.Spec.mixed (Cert.Spec.rowOf x1 b c) (fun d => Cert.Spec.rowOf x0 b d) (Cert.Spec.hw h w')) w := rfl

/-- The last stage at (b, c, h, w): the exponential of the shifted entry over the sum of the row's, which is the
    specification's entry. -/
theorem v30_at
    (h17 : ∀ (b : Fin 16) (c d : Fin 512), val_main_v17 (F := Ideal) x0 x1 (ix3 b c d)
        = Cert.Spec.attn (Cert.Spec.rowOf x1 b c) (fun d => Cert.Spec.rowOf x0 b d) d)
    (b : Fin 16) (c : Fin 512) (h w : Fin 64) :
    val_main_v30 (F := Ideal) x0 x1 (ix4 b c h w) = Cert.Spec.G x0 x1 (ix4 b c h w) := by
  rw [val_main_v30_apply, Ideal.hostDivf_def, G_at]
  refine (softmax_of (fun w' : Fin 64 => val_main_v19 (F := Ideal) x0 x1 (ix4 b c h w'))
    (fun w' : Fin 64 => val_main_v26 (F := Ideal) x0 x1 (ix4 b c h w'))
    (val_main_v22 (F := Ideal) x0 x1 (ix3 b c h)) (val_main_v29 (F := Ideal) x0 x1 (ix4 b c h w))
    (v22_at x0 x1 b c h) (fun k => v26_at x0 x1 b c h k) (v29_at x0 x1 b c h w) w).trans ?_
  exact softmax_congr (fun k => v19_at x0 x1 h17 b c h k) w

end

end Tail

/-- Given that the reference's attention stage is the specification's attention weights, its last stage is the
    specification: the mixture of the value rows, read as 64 rows of 64, and the softmax over the width. -/
theorem ref_tail (x0 x1 : (⟨S16x512x64x64, .f32⟩ : BufTy).Contents (Elt Ideal))
    (h17 : ∀ (b : Fin 16) (c d : Fin 512), val_main_v17 (F := Ideal) x0 x1 (ix3 b c d)
        = Cert.Spec.attn (Cert.Spec.rowOf x1 b c) (fun d => Cert.Spec.rowOf x0 b d) d) :
    val_main_v30 (F := Ideal) x0 x1 = Cert.Spec.G x0 x1 := by
  funext i
  obtain ⟨b, c, h, w, rfl⟩ : ∃ (b : Fin 16) (c : Fin 512) (h w : Fin 64), i = ix4 b c h w :=
    ⟨i 0, i 1, i 2, i 3, eq_ix4 i⟩
  exact Tail.v30_at x0 x1 h17 b c h w

end Cert.ReferenceIdeal.RefValue

end
-- ==== Proof.RefValue.lean ====
/-
  The reference program's result, entry by entry, is the specification.
-/
import proofs.«145386_j35579509080688_2_alg».proof.Proof.Gen.ReferenceIdeal.Read
import proofs.«145386_j35579509080688_2_alg».proof.Proof.Spec
import proofs.«145386_j35579509080688_2_alg».proof.Proof.RefValueA
import proofs.«145386_j35579509080688_2_alg».proof.Proof.RefTail
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reference's last stage, as a function of its two arguments (x0 the key/value array, x1 the query array), is the
    specification. -/
theorem ref_eq (x0 x1 : (⟨S16x512x64x64, .f32⟩ : BufTy).Contents (Elt Ideal)) :
    val_main_v30 (F := Ideal) x0 x1 = Cert.Spec.G x0 x1 :=
  ref_tail x0 x1 (ref_attn x0 x1)

end Cert.ReferenceIdeal.RefValue

end
-- ==== Proof.lean ====
/-
  A fused channel-attention kernel against its jnp reference, on the extended reals.

  Both programs take x_training and x_pre of shape [16, 512, 64, 64], read them as kv and q of shape [16, 512, 4096], and
  compute, for batch entry b and channel c,
      energy d  = Σ_n q[b,c,n] · kv[b,d,n],   flipped d = (max_d energy) − energy d,   attn = softmax_d flipped,
      mixed n   = Σ_d attn d · kv[b,d,n],      out[b,c,h,w] = softmax_w mixed (64·h + w).
  The reference does this with whole-array operations. The kernel walks a 16 × 4 grid — batch entry b, 128 channels at
  a time — and differs in one place: it splits each operand into a bf16-rounded part and the residual and adds three
  inner products, q·kv + q·(kv − kv̂) + (q − q̂)·kv, where x̂ is x rounded to bf16 and widened back. On the extended reals
  a change of float format is the identity, so the residuals are x − x, which is 0 for every finite x (and only for
  those: this is where the precondition, every input finite, is used), the two correction sums vanish term by term, and
  the energies agree; everything after the energy is operation for operation the same formula. The kernel keeps the
  batch entry's key rows and their residual in two arrays it fills at the first of the entry's four grid points and
  reads at all four; since the key block depends on b alone, they hold the fill of the CURRENT point's key block after
  every point.

  The modules: Spec (the formulas, and the lemma that removes the residuals), Payload (the kernel body's arithmetic
  read at an entry), Carried (what every grid point leaves, by induction along the grid), HostPrefix (the launched
  arrays are the reshaped arguments), KernelValue (the blocks tile the result: the kernel's run ends at the
  specification), RefValue (the reference's last stage is the specification), Finite (the precondition unpacked).
-/
import proofs.«145386_j35579509080688_2_alg».proof.Defs
import proofs.«145386_j35579509080688_2_alg».proof.Proof.Gen.Kernel
import proofs.«145386_j35579509080688_2_alg».proof.Proof.Gen.Kernel.Skeleton
import proofs.«145386_j35579509080688_2_alg».proof.Proof.Gen.Kernel.Launch
import proofs.«145386_j35579509080688_2_alg».proof.Proof.Gen.Kernel.Points
import proofs.«145386_j35579509080688_2_alg».proof.Proof.Gen.Kernel.Frame
import proofs.«145386_j35579509080688_2_alg».proof.Proof.Gen.KernelIdeal
import proofs.«145386_j35579509080688_2_alg».proof.Proof.Gen.KernelIdeal.Skeleton
import proofs.«145386_j35579509080688_2_alg».proof.Proof.Gen.KernelIdeal.Launch
import proofs.«145386_j35579509080688_2_alg».proof.Proof.Gen.KernelIdeal.Points
import proofs.«145386_j35579509080688_2_alg».proof.Proof.Gen.KernelIdeal.Frame
import proofs.«145386_j35579509080688_2_alg».proof.Proof.Gen.ReferenceIdeal
import proofs.«145386_j35579509080688_2_alg».proof.Proof.Gen.KernelIdeal.Value
import proofs.«145386_j35579509080688_2_alg».proof.Proof.Gen.ReferenceIdeal.Run
import proofs.«145386_j35579509080688_2_alg».proof.Proof.Gen.ReferenceIdeal.Read
import proofs.«145386_j35579509080688_2_alg».proof.Proof.Gen.Pre_finite_inputs
import proofs.«145386_j35579509080688_2_alg».proof.Proof.Spec
import proofs.«145386_j35579509080688_2_alg».proof.Proof.Finite
import proofs.«145386_j35579509080688_2_alg».proof.Proof.KernelValue
import proofs.«145386_j35579509080688_2_alg».proof.Proof.RefValue
import Idealize.ShloMosaic.Adequacy
import Idealize.ShloMosaic.Init

noncomputable section

namespace Cert.Proof

open Idealize.ShloMosaic Idealize.SL.Sem Cert.Kernel

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The two places where the idealized kernel drops a rounding to bf16 and back: on the extended reals that round trip
    is the identity, on words it is the rounding. -/
theorem preserves : Cert.preserves_Kernel_KernelIdeal :=
  ⟨IdealRules.truncf_extf.statement _ .f32 .bf16, IdealRules.truncf_extf.statement _ .f32 .bf16⟩

/-- From memories that agree on finite arguments both programs end at the specification of the arguments. -/
theorem algebraic : Cert.algebraic_KernelIdeal_ReferenceIdeal := by
  intro m ρ m' ρ' hpre hagree
  have fin := fun c : Dev Cert.KernelIdeal.nD => Cert.Finite.finite_of_pre _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ fin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
